-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : IVec S1x1600000 32 := (extractStridedSlice S1x1600000 ![1, 0] · slices_S2x1600000_S1x1600000_1_0) main_arg1
  let main_v45 : IVec S1600000 32 := shapeCast S1600000 main_v44 shapeCasts_S1x1600000_S1600000
  let main_c_16 : IVec S_ 32 := constantI S_ 32 0#32
  let main_v46 : IVec S1600000 32 := broadcastInDim S1600000 ![] bcast_S_S1600000 main_c_16
  let main_v47 : IVec S1600000 1 := cmpi .sge main_v45 main_v46
  let main_c_17 : IVec S_ 1 := constantI S_ 1 1#1
  let main_v48 : IVec S_ 1 := (fun x v => Host.reduce IntOp.andi x v reducesTo_S1600000_S_d0 h_S_) main_v47 main_c_17
  let main_v49 : IVec S_ 1 := andi main_v43 main_v48
  main_v49

def fn_part1 {F : FTy → Type} [FloatOps F] (main_arg1 : IVec S2x1600000 32) (main_arg6 : FVec F S128 .f32) (main_arg7 : FVec F S128x64 .f32) (main_arg8 : FVec F S64 .f32) (main_arg9 : FVec F S64x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S4000x128 : Shape := ⟨2, ![4000, 128]⟩
abbrev S1600000x128 : Shape := ⟨2, ![1600000, 128]⟩
abbrev S4000x1 : Shape := ⟨2, ![4000, 1]⟩
abbrev S1x128 : Shape := ⟨2, ![1, 128]⟩
abbrev S100000x64 : Shape := ⟨2, ![100000, 64]⟩
abbrev S4000x64 : Shape := ⟨2, ![4000, 64]⟩
abbrev S1600000x64 : Shape := ⟨2, ![1600000, 64]⟩
abbrev S1x64 : Shape := ⟨2, ![1, 64]⟩
abbrev S64x64 : Shape := ⟨2, ![64, 64]⟩
abbrev S64x1 : Shape := ⟨2, ![64, 1]⟩
abbrev S1x2 : Shape := ⟨2, ![1, 2]⟩

abbrev nBuf : Space → Nat
  | .hbm => 123
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x128, .bf16⟩
  | .hbm, ⟨47, _⟩ => ⟨S128x128, .bf16⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .bf16⟩
  | .hbm, ⟨67, _⟩ => ⟨S128x128, .bf16⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x128, .f32⟩
  | .hbm, ⟨86, _⟩ => ⟨S100000x128, .bf16⟩
  | .hbm, ⟨87, _⟩ => ⟨S128x64, .bf16⟩
  | .hbm, ⟨88, _⟩ => ⟨S100000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x64, .f32⟩
  | .hbm, ⟨98, _⟩ => ⟨S1600000x1, .f32⟩
  | .hbm, ⟨99, _⟩ => ⟨S1600000x64, .f32⟩
  | .hbm, ⟨100, _⟩ => ⟨S1600000x64, .f32⟩
  | .hbm, ⟨101, _⟩ => ⟨S_, .f32⟩
  | .hbm, ⟨102, _⟩ => ⟨S100000x64, .f32⟩
  | .hbm, ⟨103, _⟩ => ⟨S1600000x1, .i32⟩
  | .hbm, ⟨104, _⟩ => ⟨S100000x64, .f32⟩
  | .hbm, ⟨105, _⟩ => ⟨S100000x64, .f32⟩
  | .hbm, ⟨106, _⟩ => ⟨S_, .f32⟩
  | .hbm, ⟨107, _⟩ => ⟨S64x64, .f32⟩
  | .hbm, ⟨108, _⟩ => ⟨S100000x1, .i32⟩
  | .hbm, ⟨109, _⟩ => ⟨S64x64, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S64, .f32⟩
  | .hbm, ⟨114, _⟩ => ⟨S100000x1, .i32⟩
  | .hbm, ⟨115, _⟩ => ⟨S64, .f32⟩
  | .hbm, ⟨116, _⟩ => ⟨S_, .f32⟩
  | .hbm, ⟨117, _⟩ => ⟨S64, .f32⟩
  | .hbm, ⟨118, _⟩ => ⟨S64, .f32⟩
  | .hbm, ⟨119, _⟩ => ⟨S64x1, .f32⟩
  | .hbm, ⟨120, _⟩ => ⟨S64x64, .f32⟩
  | .hbm, ⟨121, _⟩ => ⟨S64x64, .f32⟩
  | .hbm, ⟨122, _⟩ => ⟨S64x2, .f32⟩
  | .local _ .vmem, ⟨0, _⟩ => ⟨S4000x128, .bf16⟩
  | .local _ .vmem, ⟨1, _⟩ => ⟨S4000x128, .bf16⟩
  | .local _ .vmem, ⟨2, _⟩ => ⟨S128x128, .bf16⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S128, .f32⟩
  | .local _ .vmem, ⟨12, _⟩ => ⟨S4000x128, .f32⟩
  | .local _ .vmem, ⟨13, _⟩ => ⟨S4000x128, .f32⟩
  | .local _ .vmem, ⟨14, _⟩ => ⟨S4000x128, .bf16⟩
  | .local _ .vmem, ⟨15, _⟩ => ⟨S4000x128, .bf16⟩
  | .local _ .vmem, ⟨16, _⟩ => ⟨S128x128, .bf16⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S128, .f32⟩
  | .local _ .vmem, ⟨26, _⟩ => ⟨S4000x128, .f32⟩
  | .local _ .vmem, ⟨27, _⟩ => ⟨S4000x128, .f32⟩
  | .local _ .vmem, ⟨28, _⟩ => ⟨S4000x128, .bf16⟩
  | .local _ .vmem, ⟨29, _⟩ => ⟨S4000x128, .bf16⟩
  | .local _ .vmem, ⟨30, _⟩ => ⟨S128x64, .bf16⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x1, .f32⟩
  | .local _ .vmem, ⟨38, _⟩ => ⟨S4000x1, .f32⟩
  | .local _ .vmem, ⟨39, _⟩ => ⟨S64, .f32⟩
  | .local _ .vmem, ⟨40, _⟩ => ⟨S4000x64, .f32⟩
  | .local _ .vmem, ⟨41, _⟩ => ⟨S4000x64, .f32⟩
  | .local _ .vmem, ⟨42, _⟩ => ⟨S64x64, .f32⟩
  | .local _ .vmem, ⟨43, _⟩ => ⟨S64x2, .f32⟩
  | .local _ .vmem, ⟨44, _⟩ => ⟨S2, .f32⟩
  | .local _ .vmem, ⟨45, _⟩ => ⟨S64x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_11 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_15 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4000x64_S4000x64_0_0 : ∀ a, (![0, 0] : Fin 2 → Nat) a + S4000x64.size a ≤ S4000x64.size a
  h_S4000x64 : 0 < S4000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S4000x64_S4000x64 : S4000x64.ShapeCasts S4000x64
  broadcasts_S4000x1_S4000x64 : S4000x1.Broadcasts S4000x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .bf16 = 32 ∨ (Rect.block (s := S100000x128) S4000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .bf16 = 32 ∨ (Rect.block (s := S128x64) S128x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S100000x64.size a
  hwx5_1 : ∀ i : grid5.Coords, EltTy.bits .f32 = 32 ∨ (Rect.block (s := S100000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S100000x64.size a
  hwx5_4 : ∀ i : grid5.Coords, EltTy.bits .f32 = 32 ∨ (Rect.block (s := S100000x64) S4000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x64.size a ≤ S64x64.size a
  hwx6_0 : ∀ i : grid6.Coords, EltTy.bits .f32 = 32 ∨ (Rect.block (s := S64x64) S64x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x2.size a ≤ S64x2.size a
  hwx6_1 : ∀ i : grid6.Coords, EltTy.bits .f32 = 32 ∨ (Rect.block (s := S64x2) S64x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S2.size a ≤ S2.size a
  hwx6_2 : ∀ i : grid6.Coords, EltTy.bits .f32 = 32 ∨ (Rect.block (s := S2) S2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x2.size a ≤ S64x2.size a
  hwx6_3 : ∀ i : grid6.Coords, EltTy.bits .f32 = 32 ∨ (Rect.block (s := S64x2) S64x2.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_v28) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S4000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v90) S64x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S64x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S64x64 : Shape := ⟨2, ![64, 64]⟩
abbrev S64x1 : Shape := ⟨2, ![64, 1]⟩
abbrev S1x2 : Shape := ⟨2, ![1, 2]⟩

abbrev nBuf : Space → Nat
  | .hbm => 236
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x2, .f32⟩
  | 10 => ⟨S2, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S_, .f32⟩
  | 27 => ⟨S1600000, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x1, .f32⟩
  | 61 => ⟨S1600000x128, .f32⟩
  | 62 => ⟨S1600000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S100000x128, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S_, .f32⟩
  | 85 => ⟨S100000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S_, .f32⟩
  | 95 => ⟨S1600000, .f32⟩
  | 96 => ⟨S100000, .f32⟩
  | 97 => ⟨S100000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000, .f32⟩
  | 116 => ⟨S1600000, .f32⟩
  | 117 => ⟨S_, .f32⟩
  | 118 => ⟨S100000x128, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x128, .f32⟩
  | _ => ⟨S100000x128, .f32⟩

abbrev hbmTy0_1 (i : Nat) : BufTy := match i % 128 with
  | 0 => ⟨S1600000x1, .f32⟩
  | 1 => ⟨S1600000x128, .f32⟩
  | 2 => ⟨S1600000x128, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S100000x128, .f32⟩
  | 12 => ⟨S100000, .f32⟩
  | 13 => ⟨S100000x1, .f32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x64, .f32⟩
  | 24 => ⟨S_, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S_, .f32⟩
  | 35 => ⟨S1600000, .f32⟩
  | 36 => ⟨S100000, .f32⟩
  | 37 => ⟨S100000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S_, .f32⟩
  | 58 => ⟨S100000x64, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x64, .f32⟩
  | 68 => ⟨S1600000x1, .f32⟩
  | 69 => ⟨S1600000x64, .f32⟩
  | 70 => ⟨S1600000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S100000x64, .f32⟩
  | 80 => ⟨S100000, .f32⟩
  | 81 => ⟨S100000x1, .f32⟩
  | 82 => ⟨S100000x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S64x64, .f32⟩
  | 90 => ⟨S100000x1, .i32⟩
  | 91 => ⟨S64x64, .f32⟩
  | 92 => ⟨S_, .f32⟩
  | 93 => ⟨S100000, .f32⟩
  | 94 => ⟨S_, .f32⟩
  | 95 => ⟨S64, .f32⟩
  | 96 => ⟨S100000x1, .i32⟩
  | 97 => ⟨S64, .f32⟩
  | 98 => ⟨S_, .f32⟩
  | 99 => ⟨S64, .f32⟩
  | 100 => ⟨S64, .f32⟩
  | 101 => ⟨S64x1, .f32⟩
  | 102 => ⟨S64x64, .f32⟩
  | 103 => ⟨S64x64, .f32⟩
  | 104 => ⟨S64x2, .f32⟩
  | 105 => ⟨S1x2, .f32⟩
  | 106 => ⟨S64x2, .f32⟩
  | 107 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_c_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call0_cst : Ref sig .tc := ⟨.hbm, 80, rfl⟩
abbrev main_call0_v0 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_c_16 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_c_20 : Ref sig .tc := ⟨.hbm, 119, rfl⟩
abbrev main_v84 : Ref sig .tc := ⟨.hbm, 120, rfl⟩
abbrev main_v85 : Ref sig .tc := ⟨.hbm, 121, rfl⟩
abbrev main_c_21 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_22 : Ref sig .tc := ⟨.hbm, 131, rfl⟩
abbrev main_v94 : Ref sig .tc := ⟨.hbm, 132, rfl⟩
abbrev main_v95 : Ref sig .tc := ⟨.hbm, 133, rfl⟩
abbrev main_c_23 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_call1_cst : Ref sig .tc := ⟨.hbm, 148, rfl⟩
abbrev main_call1_v0 : Ref sig .tc := ⟨.hbm, 149, rfl⟩
abbrev main_v109 : Ref sig .tc := ⟨.hbm, 150, rfl⟩
abbrev main_v110 : Ref sig .tc := ⟨.hbm, 151, rfl⟩
abbrev main_cst_24 : Ref sig .tc := ⟨.hbm, 152, rfl⟩
abbrev main_v111 : Ref sig .tc := ⟨.hbm, 153, rfl⟩
abbrev main_c_25 : Ref sig .tc := ⟨.hbm, 154, rfl⟩
abbrev main_v112 : Ref sig .tc := ⟨.hbm, 155, rfl⟩
abbrev main_v113 : Ref sig .tc := ⟨.hbm, 156, rfl⟩
abbrev main_c_26 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_27 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_c_28 : Ref sig .tc := ⟨.hbm, 166, rfl⟩
abbrev main_v121 : Ref sig .tc := ⟨.hbm, 167, rfl⟩
abbrev main_v122 : Ref sig .tc := ⟨.hbm, 168, rfl⟩
abbrev main_c_29 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_30 : Ref sig .tc := ⟨.hbm, 175, rfl⟩
abbrev main_v128 : Ref sig .tc := ⟨.hbm, 176, rfl⟩
abbrev main_v129 : Ref sig .tc := ⟨.hbm, 177, rfl⟩
abbrev main_c_31 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_cst_32 : Ref sig .tc := ⟨.hbm, 185, rfl⟩
abbrev main_v136 : Ref sig .tc := ⟨.hbm, 186, rfl⟩
abbrev main_c_33 : Ref sig .tc := ⟨.hbm, 187, rfl⟩
abbrev main_v137 : Ref sig .tc := ⟨.hbm, 188, rfl⟩
abbrev main_v138 : Ref sig .tc := ⟨.hbm, 189, rfl⟩
abbrev main_c_34 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_c_35 : Ref sig .tc := ⟨.hbm, 199, rfl⟩
abbrev main_v147 : Ref sig .tc := ⟨.hbm, 200, rfl⟩
abbrev main_v148 : Ref sig .tc := ⟨.hbm, 201, rfl⟩
abbrev main_c_36 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_37 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_38 : Ref sig .tc := ⟨.hbm, 220, rfl⟩
abbrev main_v165 : Ref sig .tc := ⟨.hbm, 221, rfl⟩
abbrev main_cst_39 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_cst_40 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x2_S64x2_1_0_0_1_n_n_wf : DotDims.WF S64x64 S64x2 S64x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KernelRun.lean ====
/-
  The idealized kernel's run with its result named. @main is seven regions among stretches of host operations; the
  buffer contents at each boundary are a fold from the launch memory (a stretch applies its operations, a region leaves
  its output arrays at what its write-backs hold and every other buffer as entered). Every weakly fair execution
  terminates, nothing faulting, in a state whose unscoped buffers hold the contents at the last boundary: so the result
  buffer holds the last boundary's contents at that buffer, and each argument its launch contents.
-/
import proofs.«145851_j23261542875425_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.RunV

end
-- ==== Proof.PreDst.lean ====
/-
  What the precondition says about the edge list. The precondition is a conjunction: every float input is finite, and
  every entry of the destination row of the edge list (row 1 of the [2, E] index array) is non-negative. It is printed as
  a chain of one-bit conjunctions whose last conjunct is the conjunction, over all E edges, of the signed test
  dst(e) ≥ 0. If the whole chain is 1, the last conjunct is 1, and a conjunction over all edges that is 1 has a 1 at
  every edge: so every destination word tests non-negative.
-/
import proofs.«145851_j23261542875425_1_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.PreDst

open Idealize.ShloMosaic Cert.Pre_finite_inputs Cert.Pre_finite_inputs.Facts

variable [Cert.Pre_finite_inputs.Facts]

instance : Subsingleton S_.Idx := ⟨fun _ _ => funext fun d => d.elim0⟩

/-- The destination row of the edge list, as a vector of E words. -/
def dstOf (a1 : IVec S2x1600000 32) : IVec S1600000 32 :=
  shapeCast S1600000 (extractStridedSlice S1x1600000 ![1, 0] a1 slices_S2x1600000_S1x1600000_1_0) shapeCasts_S1x1600000_S1600000

/-- Under the precondition every destination word tests non-negative. -/
theorem dst_nonneg (a0 : FVec Ideal S100000x128 .f32) (a1 : IVec S2x1600000 32) (a2 : IVec S100000 32)
    (a3 : FVec Ideal S128x128 .f32) (a4 : FVec Ideal S128 .f32) (a5 : FVec Ideal S128x128 .f32) (a6 : FVec Ideal S128 .f32)
    (a7 : FVec Ideal S128x64 .f32) (a8 : FVec Ideal S64 .f32) (a9 : FVec Ideal S64x2 .f32) (a10 : FVec Ideal S2 .f32)
    (h : fn (F := Ideal) a0 a1 a2 a3 a4 a5 a6 a7 a8 a9 a10 = fun _ => 1#1) (e : S1600000.Idx) :
    cmpi .sge (dstOf a1) (broadcastInDim S1600000 ![] bcast_S_S1600000 (constantI S_ 32 0#32)) e = 1#1 := by
  have h0 := congrFun h ValueIdx.ix0
  dsimp only [fn, fn_part1, fn_part2] at h0
  have h1 := (IntOp.andi_eq_one.1 (show IntOp.andi _ _ = 1#1 from h0)).2
  exact Host.reduce_andi_all _ _ _ _ _ h1 e

end Cert.PreDst

end
-- ==== Proof.LibRowTiles.lean ====
/-
  A matrix computed in tiles of rows, read as one function of the whole arrays; and the two ways of laying a bias vector
  along the rows of a matrix before a maximum with zero. Nothing here depends on a program; every extent is a variable.

  * `prod X W` is the product of an M × K matrix and a K × N matrix, entry by entry: (i, j) ↦ Σ_k X(i, k) · W(k, j), an exact
    finite sum of extended reals. The host's `dot_general` with the plain dimension numbers is `prod` (`dotGeneral_eq_prod`).
    A tile of m rows of X times the whole W into the zero accumulator — after the change of float format a kernel makes
    on the way into the product, which is the identity on the ideal values — read at an entry of the tile is `prod X W` at
    the entry of the whole matrix that has the same row of X and the same column of W (`tile_prod_apply`).
  * `biasRelu A r` is (i, j) ↦ max (A(i, j) + r(0, j)) 0 for a one-row matrix r. A tile of rows of A plus the row
    broadcast down the tile, under the maximum with the zero splat, read at an entry of the tile is `biasRelu A r` at the
    matching entry (`tile_biasRelu_apply`); the host's spelling — A plus the vector b broadcast first to one row along axis 1
    and then down the rows, under the maximum with the broadcast zero constant — is `biasRelu A` of b recast as one row
    (`host_biasRelu_eq`). No finiteness is used: each side is the same sum and the same maximum.
-/
import Idealize.ShloMosaic.Lib.StackMember
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowTiles

open Idealize.ShloMosaic Idealize.ShloMosaic.ValueIdx

/-- The product of an M × K matrix and a K × N matrix, entry by entry. -/
def prod {M K N : Nat} (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

/-- The host's product with the plain dimension numbers is `prod`. -/
theorem dotGeneral_eq_prod {M K N : Nat} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) : Host.dotGeneral d none X W = prod X W := by
  subst hd
  funext j
  conv_lhs => rw [eq_ix2 j]
  exact StackMember.dotGeneral_plain_apply none X W (j 0) (j 1)

/-- A tile's product into the zero accumulator, at an entry whose row of the tile is row `i 0` of X and whose column of
    the weights is column `i 1` of W, is the whole product at `i`. -/
theorem tile_prod_apply {m M K N : Nat} (d : DotDims ⟨2, ![m, K]⟩ ⟨2, ![K, N]⟩ ⟨2, ![m, N]⟩) (hd : d = DotDims.plain m K N)
    (h1 : FTy.bf16.bits < FTy.f32.bits)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 xb h1) (truncf .bf16 wb h1) (constant ⟨2, ![m, N]⟩ .f32 0x00000000#32) y = prod X W i := by
  subst hd
  rw [matmul_zero_eq_dotGeneral]
  conv_lhs => rw [eq_ix2 y]
  refine (StackMember.dotGeneral_plain_apply none (truncf .bf16 xb h1) (truncf .bf16 wb h1) (y 0) (y 1)).trans ?_
  exact Finset.sum_congr rfl fun k _ => congrArg₂ (· * ·) (hx k) (hw k)

/-- The same with the tile passed through a cast to its own shape first (how a kernel reads a block it has just loaded). -/
theorem tile_prod_cast_apply {m M K N : Nat} (d : DotDims ⟨2, ![m, K]⟩ ⟨2, ![K, N]⟩ ⟨2, ![m, N]⟩) (hd : d = DotDims.plain m K N)
    (h1 : FTy.bf16.bits < FTy.f32.bits) (hs : (⟨2, ![m, K]⟩ : Shape).ShapeCasts ⟨2, ![m, K]⟩)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 (shapeCast ⟨2, ![m, K]⟩ xb hs) h1) (truncf .bf16 wb h1) (constant ⟨2, ![m, N]⟩ .f32 0x00000000#32) y = prod X W i := by
  rw [shapeCast_self]
  exact tile_prod_apply d hd h1 xb wb X W y i hx hw

/-- A matrix plus a one-row matrix laid along every row, under the maximum with zero, entry by entry. -/
def biasRelu {M n : Nat} (A : FVec Ideal ⟨2, ![M, n]⟩ .f32) (r : FVec Ideal ⟨2, ![1, n]⟩ .f32) : FVec Ideal ⟨2, ![M, n]⟩ .f32 :=
  fun i => max (A i + r (ix2 (0 : Fin 1) (i 1))) (Ideal.ofBits .f32 0x00000000#32)

/-- A one-row matrix broadcast down m rows in the kernel's spelling, read at an entry, is the row at that column. -/
theorem broadcastTo_oneRow_at {α : Type} {m n : Nat} (b : (⟨2, ![1, n]⟩ : Shape).Idx → α)
    (hb : (⟨2, ![1, n]⟩ : Shape).Broadcasts ⟨2, ![m, n]⟩) (y : (⟨2, ![m, n]⟩ : Shape).Idx) :
    broadcastTo ⟨2, ![m, n]⟩ b hb y = b (ix2 (0 : Fin 1) (y 1)) := by
  refine broadcastTo_apply b hb y (ix2 (0 : Fin 1) (y 1)) ?_
  intro a
  match a with
  | ⟨0, _⟩ => rfl
  | ⟨1, _⟩ =>
    show (y 1).val = if n = 1 then 0 else (y 1).val
    split
    · have := idx2_lt1 y; omega
    · rfl

/-- A tile of rows plus the row broadcast down the tile, under the maximum with the zero splat, at an entry of the tile. -/
theorem tile_biasRelu_apply {m M n : Nat} (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf ab (broadcastTo ⟨2, ![m, n]⟩ rb hb)) (broadcast ⟨2, ![m, n]⟩ (Scalar.ofBits (F := Ideal) .f32 0x00000000#32)) y
      = biasRelu A r i := by
  show max (ab y + broadcastTo ⟨2, ![m, n]⟩ rb hb y) (Ideal.ofBits .f32 0x00000000#32) = max (A i + r (ix2 (0 : Fin 1) (i 1))) _
  rw [broadcastTo_oneRow_at rb hb y, ha, hr]

/-- The same with the tile and the row each passed through a cast to its own shape first. -/
theorem tile_biasRelu_cast_apply {m M n : Nat} (hs1 : (⟨2, ![m, n]⟩ : Shape).ShapeCasts ⟨2, ![m, n]⟩)
    (hs2 : (⟨2, ![1, n]⟩ : Shape).ShapeCasts ⟨2, ![1, n]⟩) (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf (shapeCast ⟨2, ![m, n]⟩ ab hs1) (broadcastTo ⟨2, ![m, n]⟩ (shapeCast ⟨2, ![1, n]⟩ rb hs2) hb))
        (broadcast ⟨2, ![m, n]⟩ (Scalar.ofBits (F := Ideal) .f32 0x00000000#32)) y
      = biasRelu A r i := by
  rw [shapeCast_self, shapeCast_self]
  exact tile_biasRelu_apply hb ab rb A r y i ha hr

/-- The host's spelling of the same function of the whole arrays: the bias vector b broadcast to one row along axis 1 and
    then down the rows, added, under the maximum with the broadcast zero constant. -/
theorem host_biasRelu_eq {M n : Nat} (dims0 : Fin 0 → Fin 2)
    (hd1 : (⟨1, ![n]⟩ : Shape).BroadcastsInDim ⟨2, ![1, n]⟩ ![1])
    (hd2 : (⟨2, ![1, n]⟩ : Shape).BroadcastsInDim ⟨2, ![M, n]⟩ ![0, 1])
    (h0 : (⟨0, ![]⟩ : Shape).BroadcastsInDim ⟨2, ![M, n]⟩ dims0)
    (h1 : (⟨1, ![n]⟩ : Shape).ShapeCasts ⟨2, ![1, n]⟩)
    (A : FVec Ideal ⟨2, ![M, n]⟩ .f32) (b : FVec Ideal ⟨1, ![n]⟩ .f32) :
    maximumf (addf A (broadcastInDim ⟨2, ![M, n]⟩ ![0, 1] hd2 (broadcastInDim ⟨2, ![1, n]⟩ ![1] hd1 b)))
        (broadcastInDim ⟨2, ![M, n]⟩ dims0 h0 (constant (F := Ideal) ⟨0, ![]⟩ .f32 0x00000000#32))
      = biasRelu A (shapeCast ⟨2, ![1, n]⟩ b h1) := by
  funext i
  show max (A i + broadcastInDim ⟨2, ![M, n]⟩ ![0, 1] hd2 (broadcastInDim ⟨2, ![1, n]⟩ ![1] hd1 b) i) (Ideal.ofBits .f32 0x00000000#32)
    = max (A i + shapeCast ⟨2, ![1, n]⟩ b h1 (ix2 (0 : Fin 1) (i 1))) _
  have e1 : broadcastInDim ⟨2, ![M, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  have e2 : broadcastInDim ⟨2, ![1, n]⟩ ![1] hd1 b (ix2 (0 : Fin 1) (i 1)) = b (ix1 (i 1)) := by
    refine broadcastInDim_apply ![1] hd1 b (ix2 (0 : Fin 1) (i 1)) (ix1 (i 1)) ?_
    intro a
    match a with
    | ⟨0, _⟩ =>
      show (i 1).val = if n = 1 then 0 else (i 1).val
      split
      · have := idx2_lt1 i; omega
      · rfl
  have e3 : shapeCast ⟨2, ![1, n]⟩ b h1 (ix2 (0 : Fin 1) (i 1)) = b (ix1 (i 1)) := by
    refine shapeCast_apply b h1 (ix2 (0 : Fin 1) (i 1)) (ix1 (i 1)) ?_
    rw [Shape.rowMajor_val_two, Shape.rowMajor_val_one]
    show (i 1).val = 0 * n + (i 1).val
    omega
  rw [e1, e2, e3]

/-- A vector recast as one row and broadcast down m rows (the kernel's spelling), at an entry, is the vector at the column. -/
theorem kernelRow_apply {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (i : (⟨2, ![m, n]⟩ : Shape).Idx) : broadcastTo ⟨2, ![m, n]⟩ (shapeCast ⟨2, ![1, n]⟩ b h1) hb i = b (ix1 (i 1)) := by
  rw [broadcastTo_oneRow_at]
  refine shapeCast_apply b h1 (ix2 (0 : Fin 1) (i 1)) (ix1 (i 1)) ?_
  rw [Shape.rowMajor_val_two, Shape.rowMajor_val_one]
  show (i 1).val = 0 * n + (i 1).val
  omega

/-- A vector broadcast to one row along axis 1 and then down m rows (the host's spelling), at an entry, is the vector at
    the column. -/
theorem hostRow_apply {α : Type} {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1])
    (i : (⟨2, ![m, n]⟩ : Shape).Idx) :
    broadcastInDim ⟨2, ![m, n]⟩ ![0, 1] hd2 (broadcastInDim ⟨2, ![1, n]⟩ ![1] hd1 b) i = b (ix1 (i 1)) := by
  have e1 : broadcastInDim ⟨2, ![m, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  rw [e1]
  refine broadcastInDim_apply ![1] hd1 b (ix2 (0 : Fin 1) (i 1)) (ix1 (i 1)) ?_
  intro a
  match a with
  | ⟨0, _⟩ =>
    show (i 1).val = if n = 1 then 0 else (i 1).val
    split
    · have := idx2_lt1 i; omega
    · rfl

/-- The two spellings of a vector laid along every row are one array. -/
theorem kernelRow_eq_hostRow {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) :=
  funext fun i => (kernelRow_apply b h1 hb i).trans (hostRow_apply b hd1 hd2 i).symm

/-- A whole matrix as its own tile: the kernel's product of the whole arrays into the zero accumulator is `prod`. -/
theorem matmul_eq_prod {M K N : Nat} (d : DotDims ⟨2, ![M, K]⟩ ⟨2, ![K, N]⟩ ⟨2, ![M, N]⟩) (hd : d = DotDims.plain M K N)
    (h1 : FTy.bf16.bits < FTy.f32.bits) (X : FVec Ideal ⟨2, ![M, K]⟩ .f32) (W : FVec Ideal ⟨2, ![K, N]⟩ .f32) :
    matmul d none (truncf .bf16 X h1) (truncf .bf16 W h1) (constant ⟨2, ![M, N]⟩ .f32 0x00000000#32) = prod X W :=
  funext fun y => tile_prod_apply d hd h1 X W X W y y (fun _ => rfl) (fun _ => rfl)

/-- A whole matrix as its own tile: the kernel's bias and relu of the whole arrays is `biasRelu`. -/
theorem kernel_biasRelu_eq {M n : Nat} (hb : (⟨2, ![1, n]⟩ : Shape).Broadcasts ⟨2, ![M, n]⟩)
    (A : FVec Ideal ⟨2, ![M, n]⟩ .f32) (r : FVec Ideal ⟨2, ![1, n]⟩ .f32) :
    maximumf (addf A (broadcastTo ⟨2, ![M, n]⟩ r hb)) (broadcast ⟨2, ![M, n]⟩ (Scalar.ofBits (F := Ideal) .f32 0x00000000#32))
      = biasRelu A r :=
  funext fun y => tile_biasRelu_apply hb A r A r y y rfl rfl

end Cert.LibRowTiles

end
-- ==== Proof.GcnDefs.lean ====
/-
  The whole-array functions of one graph-convolution layer's dense parts, entry by entry on the extended reals, for any
  extents. Nothing here depends on a program.

  * `selfLoop h agg d2 b` is (i, j) ↦ (agg(i, j) + h(i, j) · d2(i, 0)) + b(j): the aggregated neighbour messages plus the
    node's own projected row weighted by its self-loop coefficient (a column, one entry per node), plus the bias vector
    laid along every row. `selfLoopRelu` is its maximum with zero.
  * `affine g w b` is (i, j) ↦ Σ_k g(i, k) · w(k, j) + b(j): a dense layer.
-/
import Idealize.ShloMosaic.PureOps.Ideal
import Idealize.ShloMosaic.Lib.ValueIdx
import proofs.«145851_j23261542875425_1_alg».proof.Proof.LibRowTiles

noncomputable section

namespace Cert.Gcn

open Idealize.ShloMosaic Idealize.ShloMosaic.ValueIdx

/-- Aggregated messages plus the self-loop term plus the bias, entry by entry. -/
def selfLoop {M n : Nat} (h agg : FVec Ideal ⟨2, ![M, n]⟩ .f32) (d2 : FVec Ideal ⟨2, ![M, 1]⟩ .f32)
    (b : FVec Ideal ⟨1, ![n]⟩ .f32) : FVec Ideal ⟨2, ![M, n]⟩ .f32 :=
  fun i => (agg i + h i * d2 (ix2 (i 0) (0 : Fin 1))) + b (ix1 (i 1))

/-- The same under the maximum with zero. -/
def selfLoopRelu {M n : Nat} (h agg : FVec Ideal ⟨2, ![M, n]⟩ .f32) (d2 : FVec Ideal ⟨2, ![M, 1]⟩ .f32)
    (b : FVec Ideal ⟨1, ![n]⟩ .f32) : FVec Ideal ⟨2, ![M, n]⟩ .f32 :=
  fun i => max (selfLoop h agg d2 b i) (Ideal.ofBits .f32 0x00000000#32)

/-- A dense layer: the product plus the bias vector laid along every row. -/
def affine {M K N : Nat} (g : FVec Ideal ⟨2, ![M, K]⟩ .f32) (w : FVec Ideal ⟨2, ![K, N]⟩ .f32)
    (b : FVec Ideal ⟨1, ![N]⟩ .f32) : FVec Ideal ⟨2, ![M, N]⟩ .f32 :=
  fun i => Cert.LibRowTiles.prod g w i + b (ix1 (i 1))

end Cert.Gcn

end
-- ==== Proof.GcnLaws.lean ====
/-
  Two laws about index vectors and accumulating scatters, for any shapes. Nothing here depends on a program.

  * An index word that tests non-negative (signed) is left alone by the negative-index normalisation
    "x < 0 ? x + n : x": the test x < 0 fails, so the selection keeps x. For a whole vector of such words the normalised
    vector is the vector itself (`negWrap_of_nonneg`).
  * An accumulating scatter adds, at every entry, the sum of the updates that land there to the operand's entry. Starting
    from the zero array and adding an array `one` afterwards gives (0 + s) + one, starting from `one` gives one + s:
    the same extended real, by commutativity of addition alone (`scatterAdd_zero_add`).
-/
import Idealize.ShloMosaic.PureOps
import Idealize.ShloMosaic.PureOps.Ideal
import Idealize.ShloMosaic.Lib.Affine

noncomputable section

namespace Cert.Gcn

open Idealize.ShloMosaic

/-- Non-negative index words are fixed by the negative-index normalisation. -/
theorem negWrap_of_nonneg {s : Shape} (x z n : IVec s 32) (h : ∀ i, cmpi .sge x z i = 1#1) :
    select (cmpi .slt x z) (addi x n) x = x := by
  funext i
  show Scalar.select (IntOp.cmpi .slt (x i) (z i)) (IntOp.addi (x i) (n i)) (x i) = x i
  have h1 : IntOp.cmpi .sge (x i) (z i) = 1#1 := h i
  rw [IntOp.cmpi_sge] at h1
  have h2 : ¬ IntOp.cmpi .slt (x i) (z i) = 1#1 := by rw [IntOp.cmpi_slt]; omega
  unfold Scalar.select
  split
  · next hc => exact absurd hc h2
  · rfl

/-- A scatter-add into the zero array followed by adding `one` is the scatter-add into `one`. -/
theorem scatterAdd_zero_add {s si su : Shape} {w : Nat} (d : ScatterDims s si su) (zero one : FVec Ideal s .f32)
    (hz : ∀ i, zero i = 0) (idx : IVec si w) (upd : FVec Ideal su .f32) :
    addf (Host.scatterAdd d zero idx upd) one = Host.scatterAdd d one idx upd := by
  funext i
  show (zero i + ∑ j ∈ Finset.univ.filter (fun j => d.resultIdx? j idx = some i), upd j) + one i
    = one i + ∑ j ∈ Finset.univ.filter (fun j => d.resultIdx? j idx = some i), upd j
  rw [hz i, zero_add, add_comm]

end Cert.Gcn

end
-- ==== Proof.HostElem.lean ====
/-
  The host's spelling of the dense tail of one graph-convolution layer, for any extents. Nothing here depends on a program.

  The host computes (agg + h · D) + B, where D is the column of self-loop coefficients (M × 1) stretched across the n
  columns and B is the bias vector (n entries) laid first as one row and then down the M rows; one layer then takes the
  maximum with the zero constant stretched to the whole matrix. Read at an entry (i, j), D is the column's entry at
  (i, 0), B is the vector's entry at j, and the stretched zero is zero; so the two expressions are the functions
  `selfLoop` and `selfLoopRelu` entry by entry. No finiteness is used: each side is the same sum, product and maximum
  of extended reals.
-/
import Idealize.ShloMosaic.Lib.Pipeline.Value
import Idealize.ShloMosaic.Lib.ValueIdx
import Idealize.ShloMosaic.Lib.KernelVsHost
import proofs.«145851_j23261542875425_1_alg».proof.Proof.GcnDefs

noncomputable section

namespace Cert.Gcn

open Idealize.ShloMosaic Idealize.ShloMosaic.ValueIdx

/-- A column (M × 1) stretched across n columns, read at an entry, is the column at that entry's row. -/
theorem hostCol_apply {α : Type} {M n : Nat} (d : (⟨2, ![M, 1]⟩ : Shape).Idx → α)
    (hc : (⟨2, ![M, 1]⟩ : Shape).BroadcastsInDim ⟨2, ![M, n]⟩ ![0, 1]) (i : (⟨2, ![M, n]⟩ : Shape).Idx) :
    broadcastInDim ⟨2, ![M, n]⟩ ![0, 1] hc d i = d (ix2 (i 0) (0 : Fin 1)) := by
  refine broadcastInDim_apply ![0, 1] hc d i (ix2 (i 0) (0 : Fin 1)) ?_
  intro a
  match a with
  | ⟨0, _⟩ =>
    show (i 0).val = if M = 1 then 0 else (i 0).val
    split
    · have := idx2_lt0 i; omega
    · rfl
  | ⟨1, _⟩ =>
    show (0 : ℕ) = if (1 : ℕ) = 1 then 0 else _
    simp

/-- The host's sum of the aggregated messages, the self-loop term and the bias is `selfLoop`. -/
theorem host_selfLoop_eq {M n : Nat}
    (hc : (⟨2, ![M, 1]⟩ : Shape).BroadcastsInDim ⟨2, ![M, n]⟩ ![0, 1])
    (hd1 : (⟨1, ![n]⟩ : Shape).BroadcastsInDim ⟨2, ![1, n]⟩ ![1])
    (hd2 : (⟨2, ![1, n]⟩ : Shape).BroadcastsInDim ⟨2, ![M, n]⟩ ![0, 1])
    (h agg : FVec Ideal ⟨2, ![M, n]⟩ .f32) (d2 : FVec Ideal ⟨2, ![M, 1]⟩ .f32) (b : FVec Ideal ⟨1, ![n]⟩ .f32) :
    addf (addf agg (mulf h (broadcastInDim ⟨2, ![M, n]⟩ ![0, 1] hc d2)))
        (broadcastInDim ⟨2, ![M, n]⟩ ![0, 1] hd2 (broadcastInDim ⟨2, ![1, n]⟩ ![1] hd1 b))
      = selfLoop h agg d2 b := by
  funext i
  show (agg i + h i * broadcastInDim ⟨2, ![M, n]⟩ ![0, 1] hc d2 i)
      + broadcastInDim ⟨2, ![M, n]⟩ ![0, 1] hd2 (broadcastInDim ⟨2, ![1, n]⟩ ![1] hd1 b) i
    = (agg i + h i * d2 (ix2 (i 0) (0 : Fin 1))) + b (ix1 (i 1))
  rw [hostCol_apply d2 hc i, Cert.LibRowTiles.hostRow_apply b hd1 hd2 i]

/-- The same under the maximum with the stretched zero constant is `selfLoopRelu`. -/
theorem host_selfLoopRelu_eq {M n : Nat} (dims0 : Fin 0 → Fin 2)
    (h0 : (⟨0, ![]⟩ : Shape).BroadcastsInDim ⟨2, ![M, n]⟩ dims0)
    (hc : (⟨2, ![M, 1]⟩ : Shape).BroadcastsInDim ⟨2, ![M, n]⟩ ![0, 1])
    (hd1 : (⟨1, ![n]⟩ : Shape).BroadcastsInDim ⟨2, ![1, n]⟩ ![1])
    (hd2 : (⟨2, ![1, n]⟩ : Shape).BroadcastsInDim ⟨2, ![M, n]⟩ ![0, 1])
    (h agg : FVec Ideal ⟨2, ![M, n]⟩ .f32) (d2 : FVec Ideal ⟨2, ![M, 1]⟩ .f32) (b : FVec Ideal ⟨1, ![n]⟩ .f32) :
    maximumf (addf (addf agg (mulf h (broadcastInDim ⟨2, ![M, n]⟩ ![0, 1] hc d2)))
          (broadcastInDim ⟨2, ![M, n]⟩ ![0, 1] hd2 (broadcastInDim ⟨2, ![1, n]⟩ ![1] hd1 b)))
        (broadcastInDim ⟨2, ![M, n]⟩ dims0 h0 (constant (F := Ideal) ⟨0, ![]⟩ .f32 0x00000000#32))
      = selfLoopRelu h agg d2 b := by
  funext i
  show max (addf (addf agg (mulf h (broadcastInDim ⟨2, ![M, n]⟩ ![0, 1] hc d2)))
          (broadcastInDim ⟨2, ![M, n]⟩ ![0, 1] hd2 (broadcastInDim ⟨2, ![1, n]⟩ ![1] hd1 b)) i)
        (Ideal.ofBits .f32 0x00000000#32)
    = max (selfLoop h agg d2 b i) (Ideal.ofBits .f32 0x00000000#32)
  rw [host_selfLoop_eq hc hd1 hd2 h agg d2 b]

end Cert.Gcn

end
-- ==== Proof.HostFc.lean ====
/-
  A dense layer in the host's spelling. The host computes g·w with the plain dimension numbers (rows of g against columns
  of w) and adds the bias vector b after broadcasting it first to a one-row matrix along axis 1 and then down the M rows.
  Entry (i, j) of the product is Σ_k g(i, k) · w(k, j), and entry (i, j) of the twice-broadcast bias is b(j); their sum is
  the dense layer Σ_k g(i, k) · w(k, j) + b(j), for any extents. Only the definitions are unfolded: no law of the
  extended reals is needed.
-/
import proofs.«145851_j23261542875425_1_alg».proof.Proof.GcnDefs
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx

/-- The host's product plus the bias laid along every row is the dense layer, entry by entry. -/
theorem host_affine_eq {M K N : Nat} (d : DotDims ⟨2, ![M, K]⟩ ⟨2, ![K, N]⟩ ⟨2, ![M, N]⟩) (hd : d = DotDims.plain M K N)
    (hd1 : (⟨1, ![N]⟩ : Shape).BroadcastsInDim ⟨2, ![1, N]⟩ ![1])
    (hd2 : (⟨2, ![1, N]⟩ : Shape).BroadcastsInDim ⟨2, ![M, N]⟩ ![0, 1])
    (g : FVec Ideal ⟨2, ![M, K]⟩ .f32) (w : FVec Ideal ⟨2, ![K, N]⟩ .f32) (b : FVec Ideal ⟨1, ![N]⟩ .f32) :
    addf (Host.dotGeneral d none g w) (broadcastInDim ⟨2, ![M, N]⟩ ![0, 1] hd2 (broadcastInDim ⟨2, ![1, N]⟩ ![1] hd1 b))
      = Cert.Gcn.affine g w b := by
  funext i
  show Host.dotGeneral d none g w i + broadcastInDim ⟨2, ![M, N]⟩ ![0, 1] hd2 (broadcastInDim ⟨2, ![1, N]⟩ ![1] hd1 b) i
    = Cert.LibRowTiles.prod g w i + b (ix1 (i 1))
  rw [Cert.LibRowTiles.dotGeneral_eq_prod d hd g w, Cert.LibRowTiles.hostRow_apply b hd1 hd2 i]

end Cert.Gcn

end
-- ==== Proof.Carry.lean ====
/-
  Buffers that no operation of a stretch writes and that are not among a region's arrays hold, after the stretch or the
  region, what they held before it. Each lemma here carries one buffer's contents back through the boundaries of @main
  to the boundary where it was last written (a value computed by the first stretch, a region's output, or an argument
  at launch), one boundary at a time. An array a region only reads through an input window also ends the region as it
  was entered: nothing is written back to it.
-/
import proofs.«145851_j23261542875425_1_alg».proof.Proof.Gen.KernelIdeal.Frame
import Idealize.ShloMosaic.PureOps.Ideal

set_option maxRecDepth 16384

noncomputable section

namespace Cert.KernelIdeal.Walk

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- No operation of the stretch writes the buffer: its contents after the stretch are those before it. -/
macro "host_keep" : tactic => `(tactic| (
  refine StableHlo.after_of_forall_not_mem _ _ (List.forall_iff_forall_mem.mp ?_)
  simp only [hostOps0, hostOps1, hostOps2, hostOps3, hostOps4, hostOps5, hostOps6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem carry_v1_2 : W2 (F := Ideal) m ρ c (Proc.devRef .tc main_v1) = W1 m ρ c (Proc.devRef .tc main_v1) :=
  (show W2 (F := Ideal) m ρ c (Proc.devRef .tc main_v1) = W1 m ρ c (Proc.devRef .tc main_v1) from (W2_of_ne m ρ c main_v1 (by decide)))

theorem carry_v1_6 : W6 (F := Ideal) m ρ c (Proc.devRef .tc main_v1) = W2 m ρ c (Proc.devRef .tc main_v1) :=
  (show W6 (F := Ideal) m ρ c (Proc.devRef .tc main_v1) = W5 m ρ c (Proc.devRef .tc main_v1) from (W6_of_ne m ρ c main_v1 (by decide))).trans
  ((show W5 (F := Ideal) m ρ c (Proc.devRef .tc main_v1) = W4 m ρ c (Proc.devRef .tc main_v1) from (by host_keep)).trans
  ((show W4 (F := Ideal) m ρ c (Proc.devRef .tc main_v1) = W3 m ρ c (Proc.devRef .tc main_v1) from (W4_of_ne m ρ c main_v1 (by decide))).trans
  ((show W3 (F := Ideal) m ρ c (Proc.devRef .tc main_v1) = W2 m ρ c (Proc.devRef .tc main_v1) from (by host_keep)))))

theorem carry_v1_10 : W10 (F := Ideal) m ρ c (Proc.devRef .tc main_v1) = W6 m ρ c (Proc.devRef .tc main_v1) :=
  (show W10 (F := Ideal) m ρ c (Proc.devRef .tc main_v1) = W9 m ρ c (Proc.devRef .tc main_v1) from (W10_of_ne m ρ c main_v1 (by decide))).trans
  ((show W9 (F := Ideal) m ρ c (Proc.devRef .tc main_v1) = W8 m ρ c (Proc.devRef .tc main_v1) from (by host_keep)).trans
  ((show W8 (F := Ideal) m ρ c (Proc.devRef .tc main_v1) = W7 m ρ c (Proc.devRef .tc main_v1) from (W8_of_ne m ρ c main_v1 (by decide))).trans
  ((show W7 (F := Ideal) m ρ c (Proc.devRef .tc main_v1) = W6 m ρ c (Proc.devRef .tc main_v1) from (by host_keep)))))

theorem carry_v3_2 : W2 (F := Ideal) m ρ c (Proc.devRef .tc main_v3) = W1 m ρ c (Proc.devRef .tc main_v3) :=
  (show W2 (F := Ideal) m ρ c (Proc.devRef .tc main_v3) = W1 m ρ c (Proc.devRef .tc main_v3) from (W2_of_ne m ρ c main_v3 (by decide)))

theorem carry_v3_6 : W6 (F := Ideal) m ρ c (Proc.devRef .tc main_v3) = W2 m ρ c (Proc.devRef .tc main_v3) :=
  (show W6 (F := Ideal) m ρ c (Proc.devRef .tc main_v3) = W5 m ρ c (Proc.devRef .tc main_v3) from (W6_of_ne m ρ c main_v3 (by decide))).trans
  ((show W5 (F := Ideal) m ρ c (Proc.devRef .tc main_v3) = W4 m ρ c (Proc.devRef .tc main_v3) from (by host_keep)).trans
  ((show W4 (F := Ideal) m ρ c (Proc.devRef .tc main_v3) = W3 m ρ c (Proc.devRef .tc main_v3) from (W4_of_ne m ρ c main_v3 (by decide))).trans
  ((show W3 (F := Ideal) m ρ c (Proc.devRef .tc main_v3) = W2 m ρ c (Proc.devRef .tc main_v3) from (by host_keep)))))

theorem carry_v3_10 : W10 (F := Ideal) m ρ c (Proc.devRef .tc main_v3) = W6 m ρ c (Proc.devRef .tc main_v3) :=
  (show W10 (F := Ideal) m ρ c (Proc.devRef .tc main_v3) = W9 m ρ c (Proc.devRef .tc main_v3) from (W10_of_ne m ρ c main_v3 (by decide))).trans
  ((show W9 (F := Ideal) m ρ c (Proc.devRef .tc main_v3) = W8 m ρ c (Proc.devRef .tc main_v3) from (by host_keep)).trans
  ((show W8 (F := Ideal) m ρ c (Proc.devRef .tc main_v3) = W7 m ρ c (Proc.devRef .tc main_v3) from (W8_of_ne m ρ c main_v3 (by decide))).trans
  ((show W7 (F := Ideal) m ρ c (Proc.devRef .tc main_v3) = W6 m ρ c (Proc.devRef .tc main_v3) from (by host_keep)))))

theorem carry_v27_2 : W2 (F := Ideal) m ρ c (Proc.devRef .tc main_v27) = W1 m ρ c (Proc.devRef .tc main_v27) :=
  (show W2 (F := Ideal) m ρ c (Proc.devRef .tc main_v27) = W1 m ρ c (Proc.devRef .tc main_v27) from (W2_of_ne m ρ c main_v27 (by decide)))

theorem carry_v27_6 : W6 (F := Ideal) m ρ c (Proc.devRef .tc main_v27) = W2 m ρ c (Proc.devRef .tc main_v27) :=
  (show W6 (F := Ideal) m ρ c (Proc.devRef .tc main_v27) = W5 m ρ c (Proc.devRef .tc main_v27) from (W6_of_ne m ρ c main_v27 (by decide))).trans
  ((show W5 (F := Ideal) m ρ c (Proc.devRef .tc main_v27) = W4 m ρ c (Proc.devRef .tc main_v27) from (by host_keep)).trans
  ((show W4 (F := Ideal) m ρ c (Proc.devRef .tc main_v27) = W3 m ρ c (Proc.devRef .tc main_v27) from (W4_of_ne m ρ c main_v27 (by decide))).trans
  ((show W3 (F := Ideal) m ρ c (Proc.devRef .tc main_v27) = W2 m ρ c (Proc.devRef .tc main_v27) from (by host_keep)))))

theorem carry_v27_10 : W10 (F := Ideal) m ρ c (Proc.devRef .tc main_v27) = W6 m ρ c (Proc.devRef .tc main_v27) :=
  (show W10 (F := Ideal) m ρ c (Proc.devRef .tc main_v27) = W9 m ρ c (Proc.devRef .tc main_v27) from (W10_of_ne m ρ c main_v27 (by decide))).trans
  ((show W9 (F := Ideal) m ρ c (Proc.devRef .tc main_v27) = W8 m ρ c (Proc.devRef .tc main_v27) from (by host_keep)).trans
  ((show W8 (F := Ideal) m ρ c (Proc.devRef .tc main_v27) = W7 m ρ c (Proc.devRef .tc main_v27) from (W8_of_ne m ρ c main_v27 (by decide))).trans
  ((show W7 (F := Ideal) m ρ c (Proc.devRef .tc main_v27) = W6 m ρ c (Proc.devRef .tc main_v27) from (by host_keep)))))

theorem carry_v12_3 : W3 (F := Ideal) m ρ c (Proc.devRef .tc main_v12) = W1 m ρ c (Proc.devRef .tc main_v12) :=
  (show W3 (F := Ideal) m ρ c (Proc.devRef .tc main_v12) = W2 m ρ c (Proc.devRef .tc main_v12) from (by host_keep)).trans
  ((show W2 (F := Ideal) m ρ c (Proc.devRef .tc main_v12) = W1 m ρ c (Proc.devRef .tc main_v12) from (W2_of_ne m ρ c main_v12 (by decide))))

theorem carry_v12_7 : W7 (F := Ideal) m ρ c (Proc.devRef .tc main_v12) = W3 m ρ c (Proc.devRef .tc main_v12) :=
  (show W7 (F := Ideal) m ρ c (Proc.devRef .tc main_v12) = W6 m ρ c (Proc.devRef .tc main_v12) from (by host_keep)).trans
  ((show W6 (F := Ideal) m ρ c (Proc.devRef .tc main_v12) = W5 m ρ c (Proc.devRef .tc main_v12) from (W6_of_ne m ρ c main_v12 (by decide))).trans
  ((show W5 (F := Ideal) m ρ c (Proc.devRef .tc main_v12) = W4 m ρ c (Proc.devRef .tc main_v12) from (by host_keep)).trans
  ((show W4 (F := Ideal) m ρ c (Proc.devRef .tc main_v12) = W3 m ρ c (Proc.devRef .tc main_v12) from ((W4_arr m ρ c 2).trans (((dat1 (V3 m ρ) c).arrAt_in 2 rfl _).trans (A_eq1 (V3 m ρ) c 2)))))))

theorem carry_v12_11 : W11 (F := Ideal) m ρ c (Proc.devRef .tc main_v12) = W7 m ρ c (Proc.devRef .tc main_v12) :=
  (show W11 (F := Ideal) m ρ c (Proc.devRef .tc main_v12) = W10 m ρ c (Proc.devRef .tc main_v12) from (by host_keep)).trans
  ((show W10 (F := Ideal) m ρ c (Proc.devRef .tc main_v12) = W9 m ρ c (Proc.devRef .tc main_v12) from (W10_of_ne m ρ c main_v12 (by decide))).trans
  ((show W9 (F := Ideal) m ρ c (Proc.devRef .tc main_v12) = W8 m ρ c (Proc.devRef .tc main_v12) from (by host_keep)).trans
  ((show W8 (F := Ideal) m ρ c (Proc.devRef .tc main_v12) = W7 m ρ c (Proc.devRef .tc main_v12) from ((W8_arr m ρ c 2).trans (((dat3 (V7 m ρ) c).arrAt_in 2 rfl _).trans (A_eq3 (V7 m ρ) c 2)))))))

theorem carry_v30_3 : W3 (F := Ideal) m ρ c (Proc.devRef .tc main_v30) = W2 m ρ c (Proc.devRef .tc main_v30) :=
  (show W3 (F := Ideal) m ρ c (Proc.devRef .tc main_v30) = W2 m ρ c (Proc.devRef .tc main_v30) from (by host_keep))

theorem carry_v47_7 : W7 (F := Ideal) m ρ c (Proc.devRef .tc main_v47) = W6 m ρ c (Proc.devRef .tc main_v47) :=
  (show W7 (F := Ideal) m ρ c (Proc.devRef .tc main_v47) = W6 m ρ c (Proc.devRef .tc main_v47) from (by host_keep))

theorem carry_v64_11 : W11 (F := Ideal) m ρ c (Proc.devRef .tc main_v64) = W10 m ρ c (Proc.devRef .tc main_v64) :=
  (show W11 (F := Ideal) m ρ c (Proc.devRef .tc main_v64) = W10 m ρ c (Proc.devRef .tc main_v64) from (by host_keep))

theorem carry_arg4_3 : W3 (F := Ideal) m ρ c (Proc.devRef .tc main_arg4) = W0 m ρ c (Proc.devRef .tc main_arg4) :=
  (show W3 (F := Ideal) m ρ c (Proc.devRef .tc main_arg4) = W2 m ρ c (Proc.devRef .tc main_arg4) from (by host_keep)).trans
  ((show W2 (F := Ideal) m ρ c (Proc.devRef .tc main_arg4) = W1 m ρ c (Proc.devRef .tc main_arg4) from (W2_of_ne m ρ c main_arg4 (by decide))).trans
  ((show W1 (F := Ideal) m ρ c (Proc.devRef .tc main_arg4) = W0 m ρ c (Proc.devRef .tc main_arg4) from (by host_keep))))

theorem carry_arg5_4 : W4 (F := Ideal) m ρ c (Proc.devRef .tc main_arg5) = W0 m ρ c (Proc.devRef .tc main_arg5) :=
  (show W4 (F := Ideal) m ρ c (Proc.devRef .tc main_arg5) = W3 m ρ c (Proc.devRef .tc main_arg5) from (W4_of_ne m ρ c main_arg5 (by decide))).trans
  ((show W3 (F := Ideal) m ρ c (Proc.devRef .tc main_arg5) = W2 m ρ c (Proc.devRef .tc main_arg5) from (by host_keep)).trans
  ((show W2 (F := Ideal) m ρ c (Proc.devRef .tc main_arg5) = W1 m ρ c (Proc.devRef .tc main_arg5) from (W2_of_ne m ρ c main_arg5 (by decide))).trans
  ((show W1 (F := Ideal) m ρ c (Proc.devRef .tc main_arg5) = W0 m ρ c (Proc.devRef .tc main_arg5) from (by host_keep)))))

theorem carry_arg6_7 : W7 (F := Ideal) m ρ c (Proc.devRef .tc main_arg6) = W0 m ρ c (Proc.devRef .tc main_arg6) :=
  (show W7 (F := Ideal) m ρ c (Proc.devRef .tc main_arg6) = W6 m ρ c (Proc.devRef .tc main_arg6) from (by host_keep)).trans
  ((show W6 (F := Ideal) m ρ c (Proc.devRef .tc main_arg6) = W5 m ρ c (Proc.devRef .tc main_arg6) from (W6_of_ne m ρ c main_arg6 (by decide))).trans
  ((show W5 (F := Ideal) m ρ c (Proc.devRef .tc main_arg6) = W4 m ρ c (Proc.devRef .tc main_arg6) from (by host_keep)).trans
  ((show W4 (F := Ideal) m ρ c (Proc.devRef .tc main_arg6) = W3 m ρ c (Proc.devRef .tc main_arg6) from (W4_of_ne m ρ c main_arg6 (by decide))).trans
  ((show W3 (F := Ideal) m ρ c (Proc.devRef .tc main_arg6) = W2 m ρ c (Proc.devRef .tc main_arg6) from (by host_keep)).trans
  ((show W2 (F := Ideal) m ρ c (Proc.devRef .tc main_arg6) = W1 m ρ c (Proc.devRef .tc main_arg6) from (W2_of_ne m ρ c main_arg6 (by decide))).trans
  ((show W1 (F := Ideal) m ρ c (Proc.devRef .tc main_arg6) = W0 m ρ c (Proc.devRef .tc main_arg6) from (by host_keep))))))))

theorem carry_arg7_8 : W8 (F := Ideal) m ρ c (Proc.devRef .tc main_arg7) = W0 m ρ c (Proc.devRef .tc main_arg7) :=
  (show W8 (F := Ideal) m ρ c (Proc.devRef .tc main_arg7) = W7 m ρ c (Proc.devRef .tc main_arg7) from (W8_of_ne m ρ c main_arg7 (by decide))).trans
  ((show W7 (F := Ideal) m ρ c (Proc.devRef .tc main_arg7) = W6 m ρ c (Proc.devRef .tc main_arg7) from (by host_keep)).trans
  ((show W6 (F := Ideal) m ρ c (Proc.devRef .tc main_arg7) = W5 m ρ c (Proc.devRef .tc main_arg7) from (W6_of_ne m ρ c main_arg7 (by decide))).trans
  ((show W5 (F := Ideal) m ρ c (Proc.devRef .tc main_arg7) = W4 m ρ c (Proc.devRef .tc main_arg7) from (by host_keep)).trans
  ((show W4 (F := Ideal) m ρ c (Proc.devRef .tc main_arg7) = W3 m ρ c (Proc.devRef .tc main_arg7) from (W4_of_ne m ρ c main_arg7 (by decide))).trans
  ((show W3 (F := Ideal) m ρ c (Proc.devRef .tc main_arg7) = W2 m ρ c (Proc.devRef .tc main_arg7) from (by host_keep)).trans
  ((show W2 (F := Ideal) m ρ c (Proc.devRef .tc main_arg7) = W1 m ρ c (Proc.devRef .tc main_arg7) from (W2_of_ne m ρ c main_arg7 (by decide))).trans
  ((show W1 (F := Ideal) m ρ c (Proc.devRef .tc main_arg7) = W0 m ρ c (Proc.devRef .tc main_arg7) from (by host_keep)))))))))

theorem carry_arg8_11 : W11 (F := Ideal) m ρ c (Proc.devRef .tc main_arg8) = W0 m ρ c (Proc.devRef .tc main_arg8) :=
  (show W11 (F := Ideal) m ρ c (Proc.devRef .tc main_arg8) = W10 m ρ c (Proc.devRef .tc main_arg8) from (by host_keep)).trans
  ((show W10 (F := Ideal) m ρ c (Proc.devRef .tc main_arg8) = W9 m ρ c (Proc.devRef .tc main_arg8) from (W10_of_ne m ρ c main_arg8 (by decide))).trans
  ((show W9 (F := Ideal) m ρ c (Proc.devRef .tc main_arg8) = W8 m ρ c (Proc.devRef .tc main_arg8) from (by host_keep)).trans
  ((show W8 (F := Ideal) m ρ c (Proc.devRef .tc main_arg8) = W7 m ρ c (Proc.devRef .tc main_arg8) from (W8_of_ne m ρ c main_arg8 (by decide))).trans
  ((show W7 (F := Ideal) m ρ c (Proc.devRef .tc main_arg8) = W6 m ρ c (Proc.devRef .tc main_arg8) from (by host_keep)).trans
  ((show W6 (F := Ideal) m ρ c (Proc.devRef .tc main_arg8) = W5 m ρ c (Proc.devRef .tc main_arg8) from (W6_of_ne m ρ c main_arg8 (by decide))).trans
  ((show W5 (F := Ideal) m ρ c (Proc.devRef .tc main_arg8) = W4 m ρ c (Proc.devRef .tc main_arg8) from (by host_keep)).trans
  ((show W4 (F := Ideal) m ρ c (Proc.devRef .tc main_arg8) = W3 m ρ c (Proc.devRef .tc main_arg8) from (W4_of_ne m ρ c main_arg8 (by decide))).trans
  ((show W3 (F := Ideal) m ρ c (Proc.devRef .tc main_arg8) = W2 m ρ c (Proc.devRef .tc main_arg8) from (by host_keep)).trans
  ((show W2 (F := Ideal) m ρ c (Proc.devRef .tc main_arg8) = W1 m ρ c (Proc.devRef .tc main_arg8) from (W2_of_ne m ρ c main_arg8 (by decide))).trans
  ((show W1 (F := Ideal) m ρ c (Proc.devRef .tc main_arg8) = W0 m ρ c (Proc.devRef .tc main_arg8) from (by host_keep))))))))))))

theorem carry_arg2_12 : W12 (F := Ideal) m ρ c (Proc.devRef .tc main_arg2) = W0 m ρ c (Proc.devRef .tc main_arg2) :=
  (show W12 (F := Ideal) m ρ c (Proc.devRef .tc main_arg2) = W11 m ρ c (Proc.devRef .tc main_arg2) from (W12_of_ne m ρ c main_arg2 (by decide))).trans
  ((show W11 (F := Ideal) m ρ c (Proc.devRef .tc main_arg2) = W10 m ρ c (Proc.devRef .tc main_arg2) from (by host_keep)).trans
  ((show W10 (F := Ideal) m ρ c (Proc.devRef .tc main_arg2) = W9 m ρ c (Proc.devRef .tc main_arg2) from (W10_of_ne m ρ c main_arg2 (by decide))).trans
  ((show W9 (F := Ideal) m ρ c (Proc.devRef .tc main_arg2) = W8 m ρ c (Proc.devRef .tc main_arg2) from (by host_keep)).trans
  ((show W8 (F := Ideal) m ρ c (Proc.devRef .tc main_arg2) = W7 m ρ c (Proc.devRef .tc main_arg2) from (W8_of_ne m ρ c main_arg2 (by decide))).trans
  ((show W7 (F := Ideal) m ρ c (Proc.devRef .tc main_arg2) = W6 m ρ c (Proc.devRef .tc main_arg2) from (by host_keep)).trans
  ((show W6 (F := Ideal) m ρ c (Proc.devRef .tc main_arg2) = W5 m ρ c (Proc.devRef .tc main_arg2) from (W6_of_ne m ρ c main_arg2 (by decide))).trans
  ((show W5 (F := Ideal) m ρ c (Proc.devRef .tc main_arg2) = W4 m ρ c (Proc.devRef .tc main_arg2) from (by host_keep)).trans
  ((show W4 (F := Ideal) m ρ c (Proc.devRef .tc main_arg2) = W3 m ρ c (Proc.devRef .tc main_arg2) from (W4_of_ne m ρ c main_arg2 (by decide))).trans
  ((show W3 (F := Ideal) m ρ c (Proc.devRef .tc main_arg2) = W2 m ρ c (Proc.devRef .tc main_arg2) from (by host_keep)).trans
  ((show W2 (F := Ideal) m ρ c (Proc.devRef .tc main_arg2) = W1 m ρ c (Proc.devRef .tc main_arg2) from (W2_of_ne m ρ c main_arg2 (by decide))).trans
  ((show W1 (F := Ideal) m ρ c (Proc.devRef .tc main_arg2) = W0 m ρ c (Proc.devRef .tc main_arg2) from (by host_keep)))))))))))))

theorem carry_arg9_13 : W13 (F := Ideal) m ρ c (Proc.devRef .tc main_arg9) = W0 m ρ c (Proc.devRef .tc main_arg9) :=
  (show W13 (F := Ideal) m ρ c (Proc.devRef .tc main_arg9) = W12 m ρ c (Proc.devRef .tc main_arg9) from (by host_keep)).trans
  ((show W12 (F := Ideal) m ρ c (Proc.devRef .tc main_arg9) = W11 m ρ c (Proc.devRef .tc main_arg9) from (W12_of_ne m ρ c main_arg9 (by decide))).trans
  ((show W11 (F := Ideal) m ρ c (Proc.devRef .tc main_arg9) = W10 m ρ c (Proc.devRef .tc main_arg9) from (by host_keep)).trans
  ((show W10 (F := Ideal) m ρ c (Proc.devRef .tc main_arg9) = W9 m ρ c (Proc.devRef .tc main_arg9) from (W10_of_ne m ρ c main_arg9 (by decide))).trans
  ((show W9 (F := Ideal) m ρ c (Proc.devRef .tc main_arg9) = W8 m ρ c (Proc.devRef .tc main_arg9) from (by host_keep)).trans
  ((show W8 (F := Ideal) m ρ c (Proc.devRef .tc main_arg9) = W7 m ρ c (Proc.devRef .tc main_arg9) from (W8_of_ne m ρ c main_arg9 (by decide))).trans
  ((show W7 (F := Ideal) m ρ c (Proc.devRef .tc main_arg9) = W6 m ρ c (Proc.devRef .tc main_arg9) from (by host_keep)).trans
  ((show W6 (F := Ideal) m ρ c (Proc.devRef .tc main_arg9) = W5 m ρ c (Proc.devRef .tc main_arg9) from (W6_of_ne m ρ c main_arg9 (by decide))).trans
  ((show W5 (F := Ideal) m ρ c (Proc.devRef .tc main_arg9) = W4 m ρ c (Proc.devRef .tc main_arg9) from (by host_keep)).trans
  ((show W4 (F := Ideal) m ρ c (Proc.devRef .tc main_arg9) = W3 m ρ c (Proc.devRef .tc main_arg9) from (W4_of_ne m ρ c main_arg9 (by decide))).trans
  ((show W3 (F := Ideal) m ρ c (Proc.devRef .tc main_arg9) = W2 m ρ c (Proc.devRef .tc main_arg9) from (by host_keep)).trans
  ((show W2 (F := Ideal) m ρ c (Proc.devRef .tc main_arg9) = W1 m ρ c (Proc.devRef .tc main_arg9) from (W2_of_ne m ρ c main_arg9 (by decide))).trans
  ((show W1 (F := Ideal) m ρ c (Proc.devRef .tc main_arg9) = W0 m ρ c (Proc.devRef .tc main_arg9) from (by host_keep))))))))))))))

theorem carry_arg10_13 : W13 (F := Ideal) m ρ c (Proc.devRef .tc main_arg10) = W0 m ρ c (Proc.devRef .tc main_arg10) :=
  (show W13 (F := Ideal) m ρ c (Proc.devRef .tc main_arg10) = W12 m ρ c (Proc.devRef .tc main_arg10) from (by host_keep)).trans
  ((show W12 (F := Ideal) m ρ c (Proc.devRef .tc main_arg10) = W11 m ρ c (Proc.devRef .tc main_arg10) from (W12_of_ne m ρ c main_arg10 (by decide))).trans
  ((show W11 (F := Ideal) m ρ c (Proc.devRef .tc main_arg10) = W10 m ρ c (Proc.devRef .tc main_arg10) from (by host_keep)).trans
  ((show W10 (F := Ideal) m ρ c (Proc.devRef .tc main_arg10) = W9 m ρ c (Proc.devRef .tc main_arg10) from (W10_of_ne m ρ c main_arg10 (by decide))).trans
  ((show W9 (F := Ideal) m ρ c (Proc.devRef .tc main_arg10) = W8 m ρ c (Proc.devRef .tc main_arg10) from (by host_keep)).trans
  ((show W8 (F := Ideal) m ρ c (Proc.devRef .tc main_arg10) = W7 m ρ c (Proc.devRef .tc main_arg10) from (W8_of_ne m ρ c main_arg10 (by decide))).trans
  ((show W7 (F := Ideal) m ρ c (Proc.devRef .tc main_arg10) = W6 m ρ c (Proc.devRef .tc main_arg10) from (by host_keep)).trans
  ((show W6 (F := Ideal) m ρ c (Proc.devRef .tc main_arg10) = W5 m ρ c (Proc.devRef .tc main_arg10) from (W6_of_ne m ρ c main_arg10 (by decide))).trans
  ((show W5 (F := Ideal) m ρ c (Proc.devRef .tc main_arg10) = W4 m ρ c (Proc.devRef .tc main_arg10) from (by host_keep)).trans
  ((show W4 (F := Ideal) m ρ c (Proc.devRef .tc main_arg10) = W3 m ρ c (Proc.devRef .tc main_arg10) from (W4_of_ne m ρ c main_arg10 (by decide))).trans
  ((show W3 (F := Ideal) m ρ c (Proc.devRef .tc main_arg10) = W2 m ρ c (Proc.devRef .tc main_arg10) from (by host_keep)).trans
  ((show W2 (F := Ideal) m ρ c (Proc.devRef .tc main_arg10) = W1 m ρ c (Proc.devRef .tc main_arg10) from (W2_of_ne m ρ c main_arg10 (by decide))).trans
  ((show W1 (F := Ideal) m ρ c (Proc.devRef .tc main_arg10) = W0 m ρ c (Proc.devRef .tc main_arg10) from (by host_keep))))))))))))))

end Cert.KernelIdeal.Walk

end
-- ==== Proof.RegionMM0.lean ====
/-
  Region 0: one dense projection, computed in 25 tiles of 4000 rows.

  The region multiplies a 100000 × 128 matrix X by a 128 × 128 matrix W. Grid point t receives rows 4000·t … 4000·t + 3999
  of X as its first block, the whole of W as its second block, and stores the product of the two, accumulated from zero,
  as rows 4000·t … 4000·t + 3999 of the output. Entry (r, q) of that tile is Σ_k X(4000·t + r, k) · W(k, q): the entry
  (4000·t + r, q) of the whole product, because row r of the tile is row 4000·t + r of X and the tile has all 128 columns
  of W. So each point writes back the whole product X·W read through its own block of rows; row i of the output lies in
  the block of point i / 4000, the 25 blocks fill the array, and the array ends holding X·W entry by entry. The sum is
  the same sum on both sides, term by term: nothing about finiteness is used.
-/
import proofs.«145851_j23261542875425_1_alg».proof.Proof.Gen.KernelIdeal.Frame
import proofs.«145851_j23261542875425_1_alg».proof.Proof.GcnDefs
import Idealize.ShloMosaic.Lib.Pipeline.Value
import Idealize.ShloMosaic.Lib.ValueIdx
import Idealize.ShloMosaic.Lib.KernelVsHost
import Idealize.ShloMosaic.Lib.StackMember

set_option maxRecDepth 16384

noncomputable section

namespace Cert.KernelIdeal.Regions

open Idealize.ShloMosaic Idealize.ShloMosaic.TcCoe Idealize.SL.Sem Idealize.ShloMosaic.ValueIdx Cert.KernelIdeal Cert.KernelIdeal.Gen
open Idealize.ShloMosaic.Pipeline (Dat Cfg Window)

theorem hz0 : (![0, 0] : Fin 2 → Nat) = fun _ => 0 := funext fun a => by fin_cases a <;> rfl

/-- The tile's product at an entry: when row y 0 of the tile is row i 0 of X and column y 1 of the weights block is
    column i 1 of W, the body's value at y is the whole product at i. -/
theorem pay0_apply (xb : FVec Ideal S4000x128 .bf16) (wb : FVec Ideal S128x128 .bf16)
    (X : FVec Ideal ⟨2, ![100000, 128]⟩ .f32) (W : FVec Ideal ⟨2, ![128, 128]⟩ .f32)
    (y : S4000x128.Idx) (i : (⟨2, ![100000, 128]⟩ : Shape).Idx)
    (hx : ∀ k : Fin 128, xb (ix2 (y 0) k) = X (ix2 (i 0) k))
    (hw : ∀ k : Fin 128, wb (ix2 k (y 1)) = W (ix2 k (i 1))) :
    k0_pay1 (F := Ideal) xb wb y = Cert.LibRowTiles.prod X W i := by
  unfold k0_pay1
  rw [shapeCast_self, shapeCast_self]
  rw [show dot_S4000x128_S128x128_S4000x128_1_0_0_1_n_n = DotDims.plain 4000 128 128 from rfl, matmul_zero_eq_dotGeneral]
  conv_lhs => rw [eq_ix2 y]
  refine (StackMember.dotGeneral_plain_apply (φ₁ := .bf16) (φ₂ := .bf16) none xb wb (y 0) (y 1)).trans ?_
  exact Finset.sum_congr rfl fun k _ => congrArg₂ (· * ·) (hx k) (hw k)

/-- The block indices over the 25 points: the block of rows of X and the output block move together, one block per
    point; every other block index is zero. -/
theorem idxFacts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is the whole product read through t's block of rows. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal)
          (Cert.LibRowTiles.prod (M := 100000) (K := 128) (N := 128) (V c main_v28) (V c main_v29)) := by
  show (cfg0.win 2).cut (grid0.coords t) ((dat0 (F := Ideal) V c).after 2 t) = _
  rw [after0_2]
  unfold out0_2
  rw [View.canon_unit_zero hz0]
  simp only [View.ld_unit_zero (S := S4000x128) hz0, View.ld_unit_zero (S := S128x128) hz0]
  obtain ⟨e0, e1, e2, e3, e4, e5⟩ := idxFacts0 t
  funext j
  show k0_pay1 (F := Ideal) (iblk0 V c 0 t) (iblk0 V c 1 t) j
    = Cert.LibRowTiles.prod (M := 100000) (K := 128) (N := 128) (V c main_v28) (V c main_v29) (((cfg0.win 2).blk t).view.emb j)
  refine pay0_apply (iblk0 V c 0 t) (iblk0 V c 1 t) (V c main_v28) (V c main_v29) j (((cfg0.win 2).blk t).view.emb j) ?_ ?_
  · intro k
    show V c main_v28 (((cfg0.win 0).blk t).view.emb (ix2 (j 0) k)) = V c main_v28 (ix2 ((((cfg0.win 2).blk t).view.emb j) 0) k)
    refine congrArg (V c main_v28) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  · intro k
    show V c main_v29 (((cfg0.win 1).blk t).view.emb (ix2 k (j 1))) = V c main_v29 (ix2 k ((((cfg0.win 2).blk t).view.emb j) 1))
    refine congrArg (V c main_v29) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem memBlk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- Every row of the output lies in the block of the point numbered by the row divided by 4000. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨e0, e1, e2, e3, e4, e5⟩ := idxFacts0 t
  have e5' : win0_2.index t (0 : Fin 2) = (i 0).val / 4000 := e5
  refine ⟨t, flush0_2 t, ?_⟩
  rw [memBlk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The output array after the region is the product of the two input arrays as the region found them. -/
theorem out0 (V : (c : Dev nD) → (b : Ref sig .tc) → Buf (Elt Ideal) ((c : Thread nD τ).loc b)) (c : Dev nD) :
    (dat0 (F := Ideal) V c).arrAt 2 cfg0.N
      = Cert.LibRowTiles.prod (M := 100000) (K := 128) (N := 128) (V c main_v28) (V c main_v29) :=
  (dat0 (F := Ideal) V c).arrAt_eq_of_cover 2 _ (fun t _ => flushed0_eq V c t) cover0

end Cert.KernelIdeal.Regions

end
-- ==== Proof.RegionMM2.lean ====
/-
  Region 2: the second layer's dense projection, computed in 25 tiles of 4000 rows.

  The region multiplies a 100000 × 128 matrix X by a 128 × 128 matrix W. Grid point t receives rows 4000·t … 4000·t + 3999
  of X as its first block, the whole of W as its second block, and stores the product of the two, accumulated from zero,
  as rows 4000·t … 4000·t + 3999 of the output. Entry (r, q) of that tile is Σ_k X(4000·t + r, k) · W(k, q): the entry
  (4000·t + r, q) of the whole product, because row r of the tile is row 4000·t + r of X and the tile has all 128 columns
  of W. So each point writes back the whole product X·W read through its own block of rows; row i of the output lies in
  the block of point i / 4000, the 25 blocks fill the array, and the array ends holding X·W entry by entry. The sum is
  the same sum on both sides, term by term: nothing about finiteness is used.
-/
import proofs.«145851_j23261542875425_1_alg».proof.Proof.Gen.KernelIdeal.Frame
import proofs.«145851_j23261542875425_1_alg».proof.Proof.GcnDefs
import Idealize.ShloMosaic.Lib.Pipeline.Value
import Idealize.ShloMosaic.Lib.ValueIdx
import Idealize.ShloMosaic.Lib.KernelVsHost
import Idealize.ShloMosaic.Lib.StackMember

set_option maxRecDepth 16384

noncomputable section

namespace Cert.KernelIdeal.Regions

open Idealize.ShloMosaic Idealize.ShloMosaic.TcCoe Idealize.SL.Sem Idealize.ShloMosaic.ValueIdx Cert.KernelIdeal Cert.KernelIdeal.Gen
open Idealize.ShloMosaic.Pipeline (Dat Cfg Window)

theorem hz2 : (![0, 0] : Fin 2 → Nat) = fun _ => 0 := funext fun a => by fin_cases a <;> rfl

/-- The tile's product at an entry: when row y 0 of the tile is row i 0 of X and column y 1 of the weights block is
    column i 1 of W, the body's value at y is the whole product at i. -/
theorem pay2_apply (xb : FVec Ideal S4000x128 .bf16) (wb : FVec Ideal S128x128 .bf16)
    (X : FVec Ideal ⟨2, ![100000, 128]⟩ .f32) (W : FVec Ideal ⟨2, ![128, 128]⟩ .f32)
    (y : S4000x128.Idx) (i : (⟨2, ![100000, 128]⟩ : Shape).Idx)
    (hx : ∀ k : Fin 128, xb (ix2 (y 0) k) = X (ix2 (i 0) k))
    (hw : ∀ k : Fin 128, wb (ix2 k (y 1)) = W (ix2 k (i 1))) :
    k2_pay1 (F := Ideal) xb wb y = Cert.LibRowTiles.prod X W i := by
  unfold k2_pay1
  rw [shapeCast_self, shapeCast_self]
  rw [show dot_S4000x128_S128x128_S4000x128_1_0_0_1_n_n = DotDims.plain 4000 128 128 from rfl, matmul_zero_eq_dotGeneral]
  conv_lhs => rw [eq_ix2 y]
  refine (StackMember.dotGeneral_plain_apply (φ₁ := .bf16) (φ₂ := .bf16) none xb wb (y 0) (y 1)).trans ?_
  exact Finset.sum_congr rfl fun k _ => congrArg₂ (· * ·) (hx k) (hw k)

/-- The block indices over the 25 points: the block of rows of X and the output block move together, one block per
    point; every other block index is zero. -/
theorem idxFacts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What point t writes back is the whole product read through t's block of rows. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal)
          (Cert.LibRowTiles.prod (M := 100000) (K := 128) (N := 128) (V c main_v45) (V c main_v46)) := by
  show (cfg2.win 2).cut (grid2.coords t) ((dat2 (F := Ideal) V c).after 2 t) = _
  rw [after2_2]
  unfold out2_2
  rw [View.canon_unit_zero hz2]
  simp only [View.ld_unit_zero (S := S4000x128) hz2, View.ld_unit_zero (S := S128x128) hz2]
  obtain ⟨e0, e1, e2, e3, e4, e5⟩ := idxFacts2 t
  funext j
  show k2_pay1 (F := Ideal) (iblk2 V c 0 t) (iblk2 V c 1 t) j
    = Cert.LibRowTiles.prod (M := 100000) (K := 128) (N := 128) (V c main_v45) (V c main_v46) (((cfg2.win 2).blk t).view.emb j)
  refine pay2_apply (iblk2 V c 0 t) (iblk2 V c 1 t) (V c main_v45) (V c main_v46) j (((cfg2.win 2).blk t).view.emb j) ?_ ?_
  · intro k
    show V c main_v45 (((cfg2.win 0).blk t).view.emb (ix2 (j 0) k)) = V c main_v45 (ix2 ((((cfg2.win 2).blk t).view.emb j) 0) k)
    refine congrArg (V c main_v45) (funext fun a => Fin.ext ?_)
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 128 + 1 * k.val = k.val; omega
  · intro k
    show V c main_v46 (((cfg2.win 1).blk t).view.emb (ix2 k (j 1))) = V c main_v46 (ix2 k ((((cfg2.win 2).blk t).view.emb j) 1))
    refine congrArg (V c main_v46) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem memBlk2 (t : Fin cfg2.N) (i : S100000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v47).slice (win2_2.rect t)).set ↔ _
  rw [View.set_slice_whole, Rect.mem_set_unit]
  exact Iff.rfl

/-- Every row of the output lies in the block of the point numbered by the row divided by 4000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 25 := N_2
  let t : Fin cfg2.N := ⟨(i 0).val / 4000, by rw [hN]; omega⟩
  obtain ⟨e0, e1, e2, e3, e4, e5⟩ := idxFacts2 t
  have e5' : win2_2.index t (0 : Fin 2) = (i 0).val / 4000 := e5
  refine ⟨t, flush2_2 t, ?_⟩
  rw [memBlk2]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 128 ≤ (i 1).val ∧ (i 1).val < win2_2.index t (1 : Fin 2) * 128 + 128; omega

/-- The output array after the region is the product of the two input arrays as the region found them. -/
theorem out2 (V : (c : Dev nD) → (b : Ref sig .tc) → Buf (Elt Ideal) ((c : Thread nD τ).loc b)) (c : Dev nD) :
    (dat2 (F := Ideal) V c).arrAt 2 cfg2.N
      = Cert.LibRowTiles.prod (M := 100000) (K := 128) (N := 128) (V c main_v45) (V c main_v46) :=
  (dat2 (F := Ideal) V c).arrAt_eq_of_cover 2 _ (fun t _ => flushed2_eq V c t) cover2

end Cert.KernelIdeal.Regions

end
-- ==== Proof.RegionMM4.lean ====
/-
  Region 4: the third layer's dense projection, computed in 25 tiles of 4000 rows.

  The region multiplies a 100000 × 128 matrix X by a 128 × 64 matrix W. Grid point t receives rows 4000·t … 4000·t + 3999
  of X as its first block, the whole of W as its second block, and stores the product of the two, accumulated from zero,
  as rows 4000·t … 4000·t + 3999 of the output. Entry (r, q) of that tile is Σ_k X(4000·t + r, k) · W(k, q): the entry
  (4000·t + r, q) of the whole product, because row r of the tile is row 4000·t + r of X and the tile has all 64 columns
  of W. So each point writes back the whole product X·W read through its own block of rows; row i of the output lies in
  the block of point i / 4000, the 25 blocks fill the array, and the array ends holding X·W entry by entry. The sum is
  the same sum on both sides, term by term: nothing about finiteness is used.
-/
import proofs.«145851_j23261542875425_1_alg».proof.Proof.Gen.KernelIdeal.Frame
import proofs.«145851_j23261542875425_1_alg».proof.Proof.GcnDefs
import Idealize.ShloMosaic.Lib.Pipeline.Value
import Idealize.ShloMosaic.Lib.ValueIdx
import Idealize.ShloMosaic.Lib.KernelVsHost
import Idealize.ShloMosaic.Lib.StackMember

set_option maxRecDepth 16384

noncomputable section

namespace Cert.KernelIdeal.Regions

open Idealize.ShloMosaic Idealize.ShloMosaic.TcCoe Idealize.SL.Sem Idealize.ShloMosaic.ValueIdx Cert.KernelIdeal Cert.KernelIdeal.Gen
open Idealize.ShloMosaic.Pipeline (Dat Cfg Window)

theorem hz4 : (![0, 0] : Fin 2 → Nat) = fun _ => 0 := funext fun a => by fin_cases a <;> rfl

/-- The tile's product at an entry: when row y 0 of the tile is row i 0 of X and column y 1 of the weights block is
    column i 1 of W, the body's value at y is the whole product at i. -/
theorem pay4_apply (xb : FVec Ideal S4000x128 .bf16) (wb : FVec Ideal S128x64 .bf16)
    (X : FVec Ideal ⟨2, ![100000, 128]⟩ .f32) (W : FVec Ideal ⟨2, ![128, 64]⟩ .f32)
    (y : S4000x64.Idx) (i : (⟨2, ![100000, 64]⟩ : Shape).Idx)
    (hx : ∀ k : Fin 128, xb (ix2 (y 0) k) = X (ix2 (i 0) k))
    (hw : ∀ k : Fin 128, wb (ix2 k (y 1)) = W (ix2 k (i 1))) :
    k4_pay1 (F := Ideal) xb wb y = Cert.LibRowTiles.prod X W i := by
  unfold k4_pay1
  rw [shapeCast_self, shapeCast_self]
  rw [show dot_S4000x128_S128x64_S4000x64_1_0_0_1_n_n = DotDims.plain 4000 128 64 from rfl, matmul_zero_eq_dotGeneral]
  conv_lhs => rw [eq_ix2 y]
  refine (StackMember.dotGeneral_plain_apply (φ₁ := .bf16) (φ₂ := .bf16) none xb wb (y 0) (y 1)).trans ?_
  exact Finset.sum_congr rfl fun k _ => congrArg₂ (· * ·) (hx k) (hw k)

/-- The block indices over the 25 points: the block of rows of X and the output block move together, one block per
    point; every other block index is zero. -/
theorem idxFacts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

/-- What point t writes back is the whole product read through t's block of rows. -/
theorem flushed4_eq (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal)
          (Cert.LibRowTiles.prod (M := 100000) (K := 128) (N := 64) (V c main_v62) (V c main_v63)) := by
  show (cfg4.win 2).cut (grid4.coords t) ((dat4 (F := Ideal) V c).after 2 t) = _
  rw [after4_2]
  unfold out4_2
  rw [View.canon_unit_zero hz4]
  simp only [View.ld_unit_zero (S := S4000x128) hz4, View.ld_unit_zero (S := S128x64) hz4]
  obtain ⟨e0, e1, e2, e3, e4, e5⟩ := idxFacts4 t
  funext j
  show k4_pay1 (F := Ideal) (iblk4 V c 0 t) (iblk4 V c 1 t) j
    = Cert.LibRowTiles.prod (M := 100000) (K := 128) (N := 64) (V c main_v62) (V c main_v63) (((cfg4.win 2).blk t).view.emb j)
  refine pay4_apply (iblk4 V c 0 t) (iblk4 V c 1 t) (V c main_v62) (V c main_v63) j (((cfg4.win 2).blk t).view.emb j) ?_ ?_
  · intro k
    show V c main_v62 (((cfg4.win 0).blk t).view.emb (ix2 (j 0) k)) = V c main_v62 (ix2 ((((cfg4.win 2).blk t).view.emb j) 0) k)
    refine congrArg (V c main_v62) (funext fun a => Fin.ext ?_)
    match a with
    | ⟨0, _⟩ => show win4_0.index t (0 : Fin 2) * 4000 + 1 * (j 0).val = win4_2.index t (0 : Fin 2) * 4000 + 1 * (j 0).val; omega
    | ⟨1, _⟩ => show win4_0.index t (1 : Fin 2) * 128 + 1 * k.val = k.val; omega
  · intro k
    show V c main_v63 (((cfg4.win 1).blk t).view.emb (ix2 k (j 1))) = V c main_v63 (ix2 k ((((cfg4.win 2).blk t).view.emb j) 1))
    refine congrArg (V c main_v63) (funext fun a => Fin.ext ?_)
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega

/-- An index of the output array is in point t's block iff each coordinate is in the block's range on its axis. -/
theorem memBlk4 (t : Fin cfg4.N) (i : S100000x64.Idx) :
    i ∈ ((cfg4.win 2).blk t).view.set ↔ ∀ a : Fin 2, win4_2.index t a * S4000x64.size a ≤ (i a).val ∧ (i a).val < win4_2.index t a * S4000x64.size a + S4000x64.size a := by
  show i ∈ ((View.whole main_v64).slice (win4_2.rect t)).set ↔ _
  rw [View.set_slice_whole, Rect.mem_set_unit]
  exact Iff.rfl

/-- Every row of the output lies in the block of the point numbered by the row divided by 4000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 25 := N_4
  let t : Fin cfg4.N := ⟨(i 0).val / 4000, by rw [hN]; omega⟩
  obtain ⟨e0, e1, e2, e3, e4, e5⟩ := idxFacts4 t
  have e5' : win4_2.index t (0 : Fin 2) = (i 0).val / 4000 := e5
  refine ⟨t, flush4_2 t, ?_⟩
  rw [memBlk4]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 64 ≤ (i 1).val ∧ (i 1).val < win4_2.index t (1 : Fin 2) * 64 + 64; omega

/-- The output array after the region is the product of the two input arrays as the region found them. -/
theorem out4 (V : (c : Dev nD) → (b : Ref sig .tc) → Buf (Elt Ideal) ((c : Thread nD τ).loc b)) (c : Dev nD) :
    (dat4 (F := Ideal) V c).arrAt 2 cfg4.N
      = Cert.LibRowTiles.prod (M := 100000) (K := 128) (N := 64) (V c main_v62) (V c main_v63) :=
  (dat4 (F := Ideal) V c).arrAt_eq_of_cover 2 _ (fun t _ => flushed4_eq V c t) cover4

end Cert.KernelIdeal.Regions

end
-- ==== Proof.RegionEl1.lean ====
/-
  Region 1: the dense tail of a graph-convolution layer, computed in 25 tiles of 4000 rows, read as one function of the
  whole arrays.

  At each of the 25 points the body loads a tile of 4000 rows of the projected features h and of the aggregated messages
  agg (128 columns each), the matching 4000 entries of the column of self-loop coefficients, and the whole bias vector, and
  stores (agg + h · d) + b over the tile, under the maximum with zero: d is the coefficient column stretched across the 128 columns and
  b the bias vector laid along every row. Entry (p, q) of the tile at point t is entry (4000·t + p, q) of the arrays, the
  coefficient read is the column's entry (4000·t + p, 0) and the bias read is entry q; so the stored tile is the tile of
  `selfLoopRelu` of the whole arrays. Every row r lies in the tile of point r / 4000 and every point writes its tile back, so the
  output array ends holding `selfLoopRelu` of the arrays as the region found them.
-/
import proofs.«145851_j23261542875425_1_alg».proof.Proof.Gen.KernelIdeal.Frame
import proofs.«145851_j23261542875425_1_alg».proof.Proof.GcnDefs
import Idealize.ShloMosaic.Lib.Pipeline.Value
import Idealize.ShloMosaic.Lib.ValueIdx

set_option maxRecDepth 16384

noncomputable section

namespace Cert.KernelIdeal.Regions
open Idealize.ShloMosaic Idealize.ShloMosaic.TcCoe Idealize.SL.Sem Idealize.ShloMosaic.ValueIdx Cert.KernelIdeal Cert.KernelIdeal.Gen
open Idealize.ShloMosaic.Pipeline (Dat Cfg Window)

theorem hz1 : (![0, 0] : Fin 2 → Nat) = fun _ => 0 := funext fun a => by fin_cases a <;> rfl

theorem hzv1 : (![0] : Fin 1 → Nat) = fun _ => 0 := funext fun a => by fin_cases a; rfl

/-- A column of m entries stretched across n columns (the kernel's spelling), at an entry, is the column at that row. -/
theorem colAt1 {α : Type} {m n : Nat} (d : (⟨2, ![m, 1]⟩ : Shape).Idx → α)
    (hb : (⟨2, ![m, 1]⟩ : Shape).Broadcasts ⟨2, ![m, n]⟩) (y : (⟨2, ![m, n]⟩ : Shape).Idx) :
    broadcastTo ⟨2, ![m, n]⟩ d hb y = d (ix2 (y 0) (0 : Fin 1)) := by
  refine broadcastTo_apply d hb y (ix2 (y 0) (0 : Fin 1)) ?_
  intro a
  match a with
  | ⟨0, _⟩ =>
    show (y 0).val = if m = 1 then 0 else (y 0).val
    split
    · have := idx2_lt0 y; omega
    · rfl
  | ⟨1, _⟩ =>
    show (0 : ℕ) = if (1 : ℕ) = 1 then 0 else _
    simp

/-- The body's arithmetic on a tile, at an entry of the tile whose reads are the whole arrays' reads at `i`. -/
theorem tileAt1 {m M n : Nat} (hbc : (⟨2, ![m, 1]⟩ : Shape).Broadcasts ⟨2, ![m, n]⟩)
    (h1 : (⟨1, ![n]⟩ : Shape).ShapeCasts ⟨2, ![1, n]⟩) (hbr : (⟨2, ![1, n]⟩ : Shape).Broadcasts ⟨2, ![m, n]⟩)
    (ab hb : FVec Ideal ⟨2, ![m, n]⟩ .f32) (db : FVec Ideal ⟨2, ![m, 1]⟩ .f32) (bb : FVec Ideal ⟨1, ![n]⟩ .f32)
    (H A : FVec Ideal ⟨2, ![M, n]⟩ .f32) (D : FVec Ideal ⟨2, ![M, 1]⟩ .f32) (B : FVec Ideal ⟨1, ![n]⟩ .f32)
    (y : (⟨2, ![m, n]⟩ : Shape).Idx) (i : (⟨2, ![M, n]⟩ : Shape).Idx)
    (ha : ab y = A i) (hh : hb y = H i) (hd : db (ix2 (y 0) (0 : Fin 1)) = D (ix2 (i 0) (0 : Fin 1)))
    (hbb : bb (ix1 (y 1)) = B (ix1 (i 1))) :
    maximumf (addf (addf ab (mulf hb (broadcastTo ⟨2, ![m, n]⟩ db hbc))) (broadcastTo ⟨2, ![m, n]⟩ (shapeCast ⟨2, ![1, n]⟩ bb h1) hbr))
        (broadcast ⟨2, ![m, n]⟩ (Scalar.ofBits (F := Ideal) .f32 0x00000000#32)) y
      = Cert.Gcn.selfLoopRelu H A D B i := by
  show max ((ab y + hb y * broadcastTo ⟨2, ![m, n]⟩ db hbc y) + broadcastTo ⟨2, ![m, n]⟩ (shapeCast ⟨2, ![1, n]⟩ bb h1) hbr y)
      (Ideal.ofBits .f32 0x00000000#32)
    = max ((A i + H i * D (ix2 (i 0) (0 : Fin 1))) + B (ix1 (i 1))) (Ideal.ofBits .f32 0x00000000#32)
  rw [colAt1 db hbc y, Cert.LibRowTiles.kernelRow_apply bb h1 hbr y, ha, hh, hd, hbb]

/-- The payload of the body's one store, at an entry of the tile. -/
theorem payAt1 (ab hb : Vec Ideal S4000x128 .f32) (db : Vec Ideal S4000x1 .f32) (bb : Vec Ideal S128 .f32)
    (H A : FVec Ideal ⟨2, ![100000, 128]⟩ .f32) (D : FVec Ideal ⟨2, ![100000, 1]⟩ .f32) (B : FVec Ideal ⟨1, ![128]⟩ .f32)
    (y : S4000x128.Idx) (i : S100000x128.Idx)
    (ha : ab y = A i) (hh : hb y = H i) (hd : db (ix2 (y 0) (0 : Fin 1)) = D (ix2 (i 0) (0 : Fin 1)))
    (hbb : bb (ix1 (y 1)) = B (ix1 (i 1))) :
    k1_pay1 ab hb db bb y = Cert.Gcn.selfLoopRelu H A D B i := by
  unfold k1_pay1
  simp only [shapeCast_self]
  exact tileAt1 broadcasts_S4000x1_S4000x128 shapeCasts_S128_S1x128 broadcasts_S1x128_S4000x128 ab hb db bb H A D B y i ha hh hd hbb

/-- The printed index maps, decided over the grid: every window that moves takes the point's number as its row-block
    index and column-block 0; the bias window stays at block 0. -/
theorem idxFacts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point `t` writes back is tile `t` of `selfLoopRelu` of the arrays as the region finds them. -/
theorem flushed1_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal) (Cert.Gcn.selfLoopRelu (M := 100000) (n := 128) (V c main_v30) (V c main_v43) (V c main_v12) (V c main_arg4)) := by
  show (cfg1.win 4).cut (grid1.coords t) ((dat1 (F := Ideal) V c).after 4 t) = _
  rw [after1_4]
  unfold out1_4
  rw [View.canon_unit_zero hz1]
  simp only [View.ld_unit_zero (S := S4000x128) hz1, View.ld_unit_zero (S := S4000x1) hz1, View.ld_unit_zero (S := S128) hzv1]
  obtain ⟨e00, e01, e10, e11, e20, e21, e30, e40, e41⟩ := idxFacts1 t
  funext j
  obtain ⟨p, q, rfl⟩ : ∃ (p : Fin 4000) (q : Fin 128), j = ix2 p q := ⟨j 0, j 1, eq_ix2 j⟩
  refine payAt1 (iblk1 V c 1 t) (iblk1 V c 0 t) (iblk1 V c 2 t) (iblk1 V c 3 t) (V c main_v30) (V c main_v43) (V c main_v12) (V c main_arg4)
    (ix2 p q) (((cfg1.win 4).blk t).view.emb (ix2 p q)) ?_ ?_ ?_ ?_
  · show V c main_v43 (((cfg1.win 1).blk t).view.emb (ix2 p q)) = V c main_v43 (((cfg1.win 4).blk t).view.emb (ix2 p q))
    refine congrArg _ (funext fun a => Fin.ext ?_)
    match a with
    | ⟨0, _⟩ => show win1_1.index t (0 : Fin 2) * 4000 + 1 * p.val = win1_4.index t (0 : Fin 2) * 4000 + 1 * p.val; omega
    | ⟨1, _⟩ => show win1_1.index t (1 : Fin 2) * 128 + 1 * q.val = win1_4.index t (1 : Fin 2) * 128 + 1 * q.val; omega
  · show V c main_v30 (((cfg1.win 0).blk t).view.emb (ix2 p q)) = V c main_v30 (((cfg1.win 4).blk t).view.emb (ix2 p q))
    refine congrArg _ (funext fun a => Fin.ext ?_)
    match a with
    | ⟨0, _⟩ => show win1_0.index t (0 : Fin 2) * 4000 + 1 * p.val = win1_4.index t (0 : Fin 2) * 4000 + 1 * p.val; omega
    | ⟨1, _⟩ => show win1_0.index t (1 : Fin 2) * 128 + 1 * q.val = win1_4.index t (1 : Fin 2) * 128 + 1 * q.val; omega
  · show V c main_v12 (((cfg1.win 2).blk t).view.emb (ix2 p (0 : Fin 1))) = V c main_v12 (ix2 ((((cfg1.win 4).blk t).view.emb (ix2 p q)) 0) (0 : Fin 1))
    refine congrArg _ (funext fun a => Fin.ext ?_)
    match a with
    | ⟨0, _⟩ => show win1_2.index t (0 : Fin 2) * 4000 + 1 * p.val = win1_4.index t (0 : Fin 2) * 4000 + 1 * p.val; omega
    | ⟨1, _⟩ => show win1_2.index t (1 : Fin 2) * 1 + 1 * 0 = 0; omega
  · show V c main_arg4 (((cfg1.win 3).blk t).view.emb (ix1 q)) = V c main_arg4 (ix1 ((((cfg1.win 4).blk t).view.emb (ix2 p q)) 1))
    refine congrArg _ (funext fun a => Fin.ext ?_)
    match a with
    | ⟨0, _⟩ => show win1_3.index t (0 : Fin 1) * 128 + 1 * q.val = win1_4.index t (1 : Fin 2) * 128 + 1 * q.val; omega

/-- An index of the output array is in point `t`'s tile iff each coordinate is in the tile's range on its axis. -/
theorem memBlk1 (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v44).slice (win1_4.rect t)).set ↔ _
  rw [View.set_slice_whole, Rect.mem_set_unit]
  exact Iff.rfl

/-- Every index of the output array is in the tile of the point its row falls in, and that point writes back. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  have ht : (i 0).val / 4000 < cfg1.N := by rw [hN]; omega
  refine ⟨⟨(i 0).val / 4000, ht⟩, flush1_4 _, ?_⟩
  obtain ⟨-, -, -, -, -, -, -, e40, e41⟩ := idxFacts1 ⟨(i 0).val / 4000, ht⟩
  rw [memBlk1]
  intro a
  match a with
  | ⟨0, _⟩ =>
    show win1_4.index ⟨(i 0).val / 4000, ht⟩ (0 : Fin 2) * 4000 ≤ (i 0).val ∧ (i 0).val < win1_4.index ⟨(i 0).val / 4000, ht⟩ (0 : Fin 2) * 4000 + 4000
    rw [e40]
    show (i 0).val / 4000 * 4000 ≤ (i 0).val ∧ (i 0).val < (i 0).val / 4000 * 4000 + 4000
    omega
  | ⟨1, _⟩ =>
    show win1_4.index ⟨(i 0).val / 4000, ht⟩ (1 : Fin 2) * 128 ≤ (i 1).val ∧ (i 1).val < win1_4.index ⟨(i 0).val / 4000, ht⟩ (1 : Fin 2) * 128 + 128
    rw [e41]
    omega

/-- The output array after the region: `selfLoopRelu` of the arrays the region read, as it found them. -/
theorem out1 (V : (c : Dev nD) → (b : Ref sig .tc) → Buf (Elt Ideal) ((c : Thread nD τ).loc b)) (c : Dev nD) :
    (dat1 (F := Ideal) V c).arrAt 4 cfg1.N
      = Cert.Gcn.selfLoopRelu (M := 100000) (n := 128) (V c main_v30) (V c main_v43) (V c main_v12) (V c main_arg4) :=
  (dat1 (F := Ideal) V c).arrAt_eq_of_cover 4 (Cert.Gcn.selfLoopRelu (M := 100000) (n := 128) (V c main_v30) (V c main_v43) (V c main_v12) (V c main_arg4))
    (fun t _ => flushed1_eq V c t) cover1

end Cert.KernelIdeal.Regions

end
-- ==== Proof.RegionEl3.lean ====
/-
  Region 3: the dense tail of a graph-convolution layer, computed in 25 tiles of 4000 rows, read as one function of the
  whole arrays.

  At each of the 25 points the body loads a tile of 4000 rows of the projected features h and of the aggregated messages
  agg (128 columns each), the matching 4000 entries of the column of self-loop coefficients, and the whole bias vector, and
  stores (agg + h · d) + b over the tile, under the maximum with zero: d is the coefficient column stretched across the 128 columns and
  b the bias vector laid along every row. Entry (p, q) of the tile at point t is entry (4000·t + p, q) of the arrays, the
  coefficient read is the column's entry (4000·t + p, 0) and the bias read is entry q; so the stored tile is the tile of
  `selfLoopRelu` of the whole arrays. Every row r lies in the tile of point r / 4000 and every point writes its tile back, so the
  output array ends holding `selfLoopRelu` of the arrays as the region found them.
-/
import proofs.«145851_j23261542875425_1_alg».proof.Proof.Gen.KernelIdeal.Frame
import proofs.«145851_j23261542875425_1_alg».proof.Proof.GcnDefs
import Idealize.ShloMosaic.Lib.Pipeline.Value
import Idealize.ShloMosaic.Lib.ValueIdx

set_option maxRecDepth 16384

noncomputable section

namespace Cert.KernelIdeal.Regions
open Idealize.ShloMosaic Idealize.ShloMosaic.TcCoe Idealize.SL.Sem Idealize.ShloMosaic.ValueIdx Cert.KernelIdeal Cert.KernelIdeal.Gen
open Idealize.ShloMosaic.Pipeline (Dat Cfg Window)

theorem hz3 : (![0, 0] : Fin 2 → Nat) = fun _ => 0 := funext fun a => by fin_cases a <;> rfl

theorem hzv3 : (![0] : Fin 1 → Nat) = fun _ => 0 := funext fun a => by fin_cases a; rfl

/-- A column of m entries stretched across n columns (the kernel's spelling), at an entry, is the column at that row. -/
theorem colAt3 {α : Type} {m n : Nat} (d : (⟨2, ![m, 1]⟩ : Shape).Idx → α)
    (hb : (⟨2, ![m, 1]⟩ : Shape).Broadcasts ⟨2, ![m, n]⟩) (y : (⟨2, ![m, n]⟩ : Shape).Idx) :
    broadcastTo ⟨2, ![m, n]⟩ d hb y = d (ix2 (y 0) (0 : Fin 1)) := by
  refine broadcastTo_apply d hb y (ix2 (y 0) (0 : Fin 1)) ?_
  intro a
  match a with
  | ⟨0, _⟩ =>
    show (y 0).val = if m = 1 then 0 else (y 0).val
    split
    · have := idx2_lt0 y; omega
    · rfl
  | ⟨1, _⟩ =>
    show (0 : ℕ) = if (1 : ℕ) = 1 then 0 else _
    simp

/-- The body's arithmetic on a tile, at an entry of the tile whose reads are the whole arrays' reads at `i`. -/
theorem tileAt3 {m M n : Nat} (hbc : (⟨2, ![m, 1]⟩ : Shape).Broadcasts ⟨2, ![m, n]⟩)
    (h1 : (⟨1, ![n]⟩ : Shape).ShapeCasts ⟨2, ![1, n]⟩) (hbr : (⟨2, ![1, n]⟩ : Shape).Broadcasts ⟨2, ![m, n]⟩)
    (ab hb : FVec Ideal ⟨2, ![m, n]⟩ .f32) (db : FVec Ideal ⟨2, ![m, 1]⟩ .f32) (bb : FVec Ideal ⟨1, ![n]⟩ .f32)
    (H A : FVec Ideal ⟨2, ![M, n]⟩ .f32) (D : FVec Ideal ⟨2, ![M, 1]⟩ .f32) (B : FVec Ideal ⟨1, ![n]⟩ .f32)
    (y : (⟨2, ![m, n]⟩ : Shape).Idx) (i : (⟨2, ![M, n]⟩ : Shape).Idx)
    (ha : ab y = A i) (hh : hb y = H i) (hd : db (ix2 (y 0) (0 : Fin 1)) = D (ix2 (i 0) (0 : Fin 1)))
    (hbb : bb (ix1 (y 1)) = B (ix1 (i 1))) :
    maximumf (addf (addf ab (mulf hb (broadcastTo ⟨2, ![m, n]⟩ db hbc))) (broadcastTo ⟨2, ![m, n]⟩ (shapeCast ⟨2, ![1, n]⟩ bb h1) hbr))
        (broadcast ⟨2, ![m, n]⟩ (Scalar.ofBits (F := Ideal) .f32 0x00000000#32)) y
      = Cert.Gcn.selfLoopRelu H A D B i := by
  show max ((ab y + hb y * broadcastTo ⟨2, ![m, n]⟩ db hbc y) + broadcastTo ⟨2, ![m, n]⟩ (shapeCast ⟨2, ![1, n]⟩ bb h1) hbr y)
      (Ideal.ofBits .f32 0x00000000#32)
    = max ((A i + H i * D (ix2 (i 0) (0 : Fin 1))) + B (ix1 (i 1))) (Ideal.ofBits .f32 0x00000000#32)
  rw [colAt3 db hbc y, Cert.LibRowTiles.kernelRow_apply bb h1 hbr y, ha, hh, hd, hbb]

/-- The payload of the body's one store, at an entry of the tile. -/
theorem payAt3 (ab hb : Vec Ideal S4000x128 .f32) (db : Vec Ideal S4000x1 .f32) (bb : Vec Ideal S128 .f32)
    (H A : FVec Ideal ⟨2, ![100000, 128]⟩ .f32) (D : FVec Ideal ⟨2, ![100000, 1]⟩ .f32) (B : FVec Ideal ⟨1, ![128]⟩ .f32)
    (y : S4000x128.Idx) (i : S100000x128.Idx)
    (ha : ab y = A i) (hh : hb y = H i) (hd : db (ix2 (y 0) (0 : Fin 1)) = D (ix2 (i 0) (0 : Fin 1)))
    (hbb : bb (ix1 (y 1)) = B (ix1 (i 1))) :
    k3_pay1 ab hb db bb y = Cert.Gcn.selfLoopRelu H A D B i := by
  unfold k3_pay1
  simp only [shapeCast_self]
  exact tileAt3 broadcasts_S4000x1_S4000x128 shapeCasts_S128_S1x128 broadcasts_S1x128_S4000x128 ab hb db bb H A D B y i ha hh hd hbb

/-- The printed index maps, decided over the grid: every window that moves takes the point's number as its row-block
    index and column-block 0; the bias window stays at block 0. -/
theorem idxFacts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- What point `t` writes back is tile `t` of `selfLoopRelu` of the arrays as the region finds them. -/
theorem flushed3_eq (V : (c : Dev nD) → (b : Ref sig .tc) → Buf (Elt Ideal) ((c : Thread nD τ).loc b)) (c : Dev nD) (t : Fin cfg3.N) :
    (dat3 (F := Ideal) V c).flushed 4 t
      = ((cfg3.win 4).blk t).view.read (Elt Ideal) (Cert.Gcn.selfLoopRelu (M := 100000) (n := 128) (V c main_v47) (V c main_v60) (V c main_v12) (V c main_arg6)) := by
  show (cfg3.win 4).cut (grid3.coords t) ((dat3 (F := Ideal) V c).after 4 t) = _
  rw [after3_4]
  unfold out3_4
  rw [View.canon_unit_zero hz3]
  simp only [View.ld_unit_zero (S := S4000x128) hz3, View.ld_unit_zero (S := S4000x1) hz3, View.ld_unit_zero (S := S128) hzv3]
  obtain ⟨e00, e01, e10, e11, e20, e21, e30, e40, e41⟩ := idxFacts3 t
  funext j
  obtain ⟨p, q, rfl⟩ : ∃ (p : Fin 4000) (q : Fin 128), j = ix2 p q := ⟨j 0, j 1, eq_ix2 j⟩
  refine payAt3 (iblk3 V c 1 t) (iblk3 V c 0 t) (iblk3 V c 2 t) (iblk3 V c 3 t) (V c main_v47) (V c main_v60) (V c main_v12) (V c main_arg6)
    (ix2 p q) (((cfg3.win 4).blk t).view.emb (ix2 p q)) ?_ ?_ ?_ ?_
  · show V c main_v60 (((cfg3.win 1).blk t).view.emb (ix2 p q)) = V c main_v60 (((cfg3.win 4).blk t).view.emb (ix2 p q))
    refine congrArg _ (funext fun a => Fin.ext ?_)
    match a with
    | ⟨0, _⟩ => show win3_1.index t (0 : Fin 2) * 4000 + 1 * p.val = win3_4.index t (0 : Fin 2) * 4000 + 1 * p.val; omega
    | ⟨1, _⟩ => show win3_1.index t (1 : Fin 2) * 128 + 1 * q.val = win3_4.index t (1 : Fin 2) * 128 + 1 * q.val; omega
  · show V c main_v47 (((cfg3.win 0).blk t).view.emb (ix2 p q)) = V c main_v47 (((cfg3.win 4).blk t).view.emb (ix2 p q))
    refine congrArg _ (funext fun a => Fin.ext ?_)
    match a with
    | ⟨0, _⟩ => show win3_0.index t (0 : Fin 2) * 4000 + 1 * p.val = win3_4.index t (0 : Fin 2) * 4000 + 1 * p.val; omega
    | ⟨1, _⟩ => show win3_0.index t (1 : Fin 2) * 128 + 1 * q.val = win3_4.index t (1 : Fin 2) * 128 + 1 * q.val; omega
  · show V c main_v12 (((cfg3.win 2).blk t).view.emb (ix2 p (0 : Fin 1))) = V c main_v12 (ix2 ((((cfg3.win 4).blk t).view.emb (ix2 p q)) 0) (0 : Fin 1))
    refine congrArg _ (funext fun a => Fin.ext ?_)
    match a with
    | ⟨0, _⟩ => show win3_2.index t (0 : Fin 2) * 4000 + 1 * p.val = win3_4.index t (0 : Fin 2) * 4000 + 1 * p.val; omega
    | ⟨1, _⟩ => show win3_2.index t (1 : Fin 2) * 1 + 1 * 0 = 0; omega
  · show V c main_arg6 (((cfg3.win 3).blk t).view.emb (ix1 q)) = V c main_arg6 (ix1 ((((cfg3.win 4).blk t).view.emb (ix2 p q)) 1))
    refine congrArg _ (funext fun a => Fin.ext ?_)
    match a with
    | ⟨0, _⟩ => show win3_3.index t (0 : Fin 1) * 128 + 1 * q.val = win3_4.index t (1 : Fin 2) * 128 + 1 * q.val; omega

/-- An index of the output array is in point `t`'s tile iff each coordinate is in the tile's range on its axis. -/
theorem memBlk3 (t : Fin cfg3.N) (i : S100000x128.Idx) :
    i ∈ ((cfg3.win 4).blk t).view.set ↔ ∀ a : Fin 2, win3_4.index t a * S4000x128.size a ≤ (i a).val ∧ (i a).val < win3_4.index t a * S4000x128.size a + S4000x128.size a := by
  show i ∈ ((View.whole main_v61).slice (win3_4.rect t)).set ↔ _
  rw [View.set_slice_whole, Rect.mem_set_unit]
  exact Iff.rfl

/-- Every index of the output array is in the tile of the point its row falls in, and that point writes back. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 25 := N_3
  have ht : (i 0).val / 4000 < cfg3.N := by rw [hN]; omega
  refine ⟨⟨(i 0).val / 4000, ht⟩, flush3_4 _, ?_⟩
  obtain ⟨-, -, -, -, -, -, -, e40, e41⟩ := idxFacts3 ⟨(i 0).val / 4000, ht⟩
  rw [memBlk3]
  intro a
  match a with
  | ⟨0, _⟩ =>
    show win3_4.index ⟨(i 0).val / 4000, ht⟩ (0 : Fin 2) * 4000 ≤ (i 0).val ∧ (i 0).val < win3_4.index ⟨(i 0).val / 4000, ht⟩ (0 : Fin 2) * 4000 + 4000
    rw [e40]
    show (i 0).val / 4000 * 4000 ≤ (i 0).val ∧ (i 0).val < (i 0).val / 4000 * 4000 + 4000
    omega
  | ⟨1, _⟩ =>
    show win3_4.index ⟨(i 0).val / 4000, ht⟩ (1 : Fin 2) * 128 ≤ (i 1).val ∧ (i 1).val < win3_4.index ⟨(i 0).val / 4000, ht⟩ (1 : Fin 2) * 128 + 128
    rw [e41]
    omega

/-- The output array after the region: `selfLoopRelu` of the arrays the region read, as it found them. -/
theorem out3 (V : (c : Dev nD) → (b : Ref sig .tc) → Buf (Elt Ideal) ((c : Thread nD τ).loc b)) (c : Dev nD) :
    (dat3 (F := Ideal) V c).arrAt 4 cfg3.N
      = Cert.Gcn.selfLoopRelu (M := 100000) (n := 128) (V c main_v47) (V c main_v60) (V c main_v12) (V c main_arg6) :=
  (dat3 (F := Ideal) V c).arrAt_eq_of_cover 4 (Cert.Gcn.selfLoopRelu (M := 100000) (n := 128) (V c main_v47) (V c main_v60) (V c main_v12) (V c main_arg6))
    (fun t _ => flushed3_eq V c t) cover3

end Cert.KernelIdeal.Regions

end
-- ==== Proof.RegionEl5.lean ====
/-
  Region 5: the dense tail of a graph-convolution layer, computed in 25 tiles of 4000 rows, read as one function of the
  whole arrays.

  At each of the 25 points the body loads a tile of 4000 rows of the projected features h and of the aggregated messages
  agg (64 columns each), the matching 4000 entries of the column of self-loop coefficients, and the whole bias vector, and
  stores (agg + h · d) + b over the tile: d is the coefficient column stretched across the 64 columns and
  b the bias vector laid along every row. Entry (p, q) of the tile at point t is entry (4000·t + p, q) of the arrays, the
  coefficient read is the column's entry (4000·t + p, 0) and the bias read is entry q; so the stored tile is the tile of
  `selfLoop` of the whole arrays. Every row r lies in the tile of point r / 4000 and every point writes its tile back, so the
  output array ends holding `selfLoop` of the arrays as the region found them.
-/
import proofs.«145851_j23261542875425_1_alg».proof.Proof.Gen.KernelIdeal.Frame
import proofs.«145851_j23261542875425_1_alg».proof.Proof.GcnDefs
import Idealize.ShloMosaic.Lib.Pipeline.Value
import Idealize.ShloMosaic.Lib.ValueIdx

set_option maxRecDepth 16384

noncomputable section

namespace Cert.KernelIdeal.Regions
open Idealize.ShloMosaic Idealize.ShloMosaic.TcCoe Idealize.SL.Sem Idealize.ShloMosaic.ValueIdx Cert.KernelIdeal Cert.KernelIdeal.Gen
open Idealize.ShloMosaic.Pipeline (Dat Cfg Window)

theorem hz5 : (![0, 0] : Fin 2 → Nat) = fun _ => 0 := funext fun a => by fin_cases a <;> rfl

theorem hzv5 : (![0] : Fin 1 → Nat) = fun _ => 0 := funext fun a => by fin_cases a; rfl

/-- A column of m entries stretched across n columns (the kernel's spelling), at an entry, is the column at that row. -/
theorem colAt5 {α : Type} {m n : Nat} (d : (⟨2, ![m, 1]⟩ : Shape).Idx → α)
    (hb : (⟨2, ![m, 1]⟩ : Shape).Broadcasts ⟨2, ![m, n]⟩) (y : (⟨2, ![m, n]⟩ : Shape).Idx) :
    broadcastTo ⟨2, ![m, n]⟩ d hb y = d (ix2 (y 0) (0 : Fin 1)) := by
  refine broadcastTo_apply d hb y (ix2 (y 0) (0 : Fin 1)) ?_
  intro a
  match a with
  | ⟨0, _⟩ =>
    show (y 0).val = if m = 1 then 0 else (y 0).val
    split
    · have := idx2_lt0 y; omega
    · rfl
  | ⟨1, _⟩ =>
    show (0 : ℕ) = if (1 : ℕ) = 1 then 0 else _
    simp

/-- The body's arithmetic on a tile, at an entry of the tile whose reads are the whole arrays' reads at `i`. -/
theorem tileAt5 {m M n : Nat} (hbc : (⟨2, ![m, 1]⟩ : Shape).Broadcasts ⟨2, ![m, n]⟩)
    (h1 : (⟨1, ![n]⟩ : Shape).ShapeCasts ⟨2, ![1, n]⟩) (hbr : (⟨2, ![1, n]⟩ : Shape).Broadcasts ⟨2, ![m, n]⟩)
    (ab hb : FVec Ideal ⟨2, ![m, n]⟩ .f32) (db : FVec Ideal ⟨2, ![m, 1]⟩ .f32) (bb : FVec Ideal ⟨1, ![n]⟩ .f32)
    (H A : FVec Ideal ⟨2, ![M, n]⟩ .f32) (D : FVec Ideal ⟨2, ![M, 1]⟩ .f32) (B : FVec Ideal ⟨1, ![n]⟩ .f32)
    (y : (⟨2, ![m, n]⟩ : Shape).Idx) (i : (⟨2, ![M, n]⟩ : Shape).Idx)
    (ha : ab y = A i) (hh : hb y = H i) (hd : db (ix2 (y 0) (0 : Fin 1)) = D (ix2 (i 0) (0 : Fin 1)))
    (hbb : bb (ix1 (y 1)) = B (ix1 (i 1))) :
    addf (addf ab (mulf hb (broadcastTo ⟨2, ![m, n]⟩ db hbc))) (broadcastTo ⟨2, ![m, n]⟩ (shapeCast ⟨2, ![1, n]⟩ bb h1) hbr) y
      = Cert.Gcn.selfLoop H A D B i := by
  show (ab y + hb y * broadcastTo ⟨2, ![m, n]⟩ db hbc y) + broadcastTo ⟨2, ![m, n]⟩ (shapeCast ⟨2, ![1, n]⟩ bb h1) hbr y
    = (A i + H i * D (ix2 (i 0) (0 : Fin 1))) + B (ix1 (i 1))
  rw [colAt5 db hbc y, Cert.LibRowTiles.kernelRow_apply bb h1 hbr y, ha, hh, hd, hbb]

/-- The payload of the body's one store, at an entry of the tile. -/
theorem payAt5 (ab hb : Vec Ideal S4000x64 .f32) (db : Vec Ideal S4000x1 .f32) (bb : Vec Ideal S64 .f32)
    (H A : FVec Ideal ⟨2, ![100000, 64]⟩ .f32) (D : FVec Ideal ⟨2, ![100000, 1]⟩ .f32) (B : FVec Ideal ⟨1, ![64]⟩ .f32)
    (y : S4000x64.Idx) (i : S100000x64.Idx)
    (ha : ab y = A i) (hh : hb y = H i) (hd : db (ix2 (y 0) (0 : Fin 1)) = D (ix2 (i 0) (0 : Fin 1)))
    (hbb : bb (ix1 (y 1)) = B (ix1 (i 1))) :
    k5_pay1 ab hb db bb y = Cert.Gcn.selfLoop H A D B i := by
  unfold k5_pay1
  simp only [shapeCast_self]
  exact tileAt5 broadcasts_S4000x1_S4000x64 shapeCasts_S64_S1x64 broadcasts_S1x64_S4000x64 ab hb db bb H A D B y i ha hh hd hbb

/-- The printed index maps, decided over the grid: every window that moves takes the point's number as its row-block
    index and column-block 0; the bias window stays at block 0. -/
theorem idxFacts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0
    ∧ win5_4.index t (0 : Fin 2) = t.val ∧ win5_4.index t (1 : Fin 2) = 0 :=
  (by decide +kernel : ∀ t : Fin grid5.N, _)

/-- What point `t` writes back is tile `t` of `selfLoop` of the arrays as the region finds them. -/
theorem flushed5_eq (V : (c : Dev nD) → (b : Ref sig .tc) → Buf (Elt Ideal) ((c : Thread nD τ).loc b)) (c : Dev nD) (t : Fin cfg5.N) :
    (dat5 (F := Ideal) V c).flushed 4 t
      = ((cfg5.win 4).blk t).view.read (Elt Ideal) (Cert.Gcn.selfLoop (M := 100000) (n := 64) (V c main_v64) (V c main_v77) (V c main_v12) (V c main_arg8)) := by
  show (cfg5.win 4).cut (grid5.coords t) ((dat5 (F := Ideal) V c).after 4 t) = _
  rw [after5_4]
  unfold out5_4
  rw [View.canon_unit_zero hz5]
  simp only [View.ld_unit_zero (S := S4000x64) hz5, View.ld_unit_zero (S := S4000x1) hz5, View.ld_unit_zero (S := S64) hzv5]
  obtain ⟨e00, e01, e10, e11, e20, e21, e30, e40, e41⟩ := idxFacts5 t
  funext j
  obtain ⟨p, q, rfl⟩ : ∃ (p : Fin 4000) (q : Fin 64), j = ix2 p q := ⟨j 0, j 1, eq_ix2 j⟩
  refine payAt5 (iblk5 V c 1 t) (iblk5 V c 0 t) (iblk5 V c 2 t) (iblk5 V c 3 t) (V c main_v64) (V c main_v77) (V c main_v12) (V c main_arg8)
    (ix2 p q) (((cfg5.win 4).blk t).view.emb (ix2 p q)) ?_ ?_ ?_ ?_
  · show V c main_v77 (((cfg5.win 1).blk t).view.emb (ix2 p q)) = V c main_v77 (((cfg5.win 4).blk t).view.emb (ix2 p q))
    refine congrArg _ (funext fun a => Fin.ext ?_)
    match a with
    | ⟨0, _⟩ => show win5_1.index t (0 : Fin 2) * 4000 + 1 * p.val = win5_4.index t (0 : Fin 2) * 4000 + 1 * p.val; omega
    | ⟨1, _⟩ => show win5_1.index t (1 : Fin 2) * 64 + 1 * q.val = win5_4.index t (1 : Fin 2) * 64 + 1 * q.val; omega
  · show V c main_v64 (((cfg5.win 0).blk t).view.emb (ix2 p q)) = V c main_v64 (((cfg5.win 4).blk t).view.emb (ix2 p q))
    refine congrArg _ (funext fun a => Fin.ext ?_)
    match a with
    | ⟨0, _⟩ => show win5_0.index t (0 : Fin 2) * 4000 + 1 * p.val = win5_4.index t (0 : Fin 2) * 4000 + 1 * p.val; omega
    | ⟨1, _⟩ => show win5_0.index t (1 : Fin 2) * 64 + 1 * q.val = win5_4.index t (1 : Fin 2) * 64 + 1 * q.val; omega
  · show V c main_v12 (((cfg5.win 2).blk t).view.emb (ix2 p (0 : Fin 1))) = V c main_v12 (ix2 ((((cfg5.win 4).blk t).view.emb (ix2 p q)) 0) (0 : Fin 1))
    refine congrArg _ (funext fun a => Fin.ext ?_)
    match a with
    | ⟨0, _⟩ => show win5_2.index t (0 : Fin 2) * 4000 + 1 * p.val = win5_4.index t (0 : Fin 2) * 4000 + 1 * p.val; omega
    | ⟨1, _⟩ => show win5_2.index t (1 : Fin 2) * 1 + 1 * 0 = 0; omega
  · show V c main_arg8 (((cfg5.win 3).blk t).view.emb (ix1 q)) = V c main_arg8 (ix1 ((((cfg5.win 4).blk t).view.emb (ix2 p q)) 1))
    refine congrArg _ (funext fun a => Fin.ext ?_)
    match a with
    | ⟨0, _⟩ => show win5_3.index t (0 : Fin 1) * 64 + 1 * q.val = win5_4.index t (1 : Fin 2) * 64 + 1 * q.val; omega

/-- An index of the output array is in point `t`'s tile iff each coordinate is in the tile's range on its axis. -/
theorem memBlk5 (t : Fin cfg5.N) (i : S100000x64.Idx) :
    i ∈ ((cfg5.win 4).blk t).view.set ↔ ∀ a : Fin 2, win5_4.index t a * S4000x64.size a ≤ (i a).val ∧ (i a).val < win5_4.index t a * S4000x64.size a + S4000x64.size a := by
  show i ∈ ((View.whole main_v78).slice (win5_4.rect t)).set ↔ _
  rw [View.set_slice_whole, Rect.mem_set_unit]
  exact Iff.rfl

/-- Every index of the output array is in the tile of the point its row falls in, and that point writes back. -/
theorem cover5 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : cfg5.N = 25 := N_5
  have ht : (i 0).val / 4000 < cfg5.N := by rw [hN]; omega
  refine ⟨⟨(i 0).val / 4000, ht⟩, flush5_4 _, ?_⟩
  obtain ⟨-, -, -, -, -, -, -, e40, e41⟩ := idxFacts5 ⟨(i 0).val / 4000, ht⟩
  rw [memBlk5]
  intro a
  match a with
  | ⟨0, _⟩ =>
    show win5_4.index ⟨(i 0).val / 4000, ht⟩ (0 : Fin 2) * 4000 ≤ (i 0).val ∧ (i 0).val < win5_4.index ⟨(i 0).val / 4000, ht⟩ (0 : Fin 2) * 4000 + 4000
    rw [e40]
    show (i 0).val / 4000 * 4000 ≤ (i 0).val ∧ (i 0).val < (i 0).val / 4000 * 4000 + 4000
    omega
  | ⟨1, _⟩ =>
    show win5_4.index ⟨(i 0).val / 4000, ht⟩ (1 : Fin 2) * 64 ≤ (i 1).val ∧ (i 1).val < win5_4.index ⟨(i 0).val / 4000, ht⟩ (1 : Fin 2) * 64 + 64
    rw [e41]
    omega

/-- The output array after the region: `selfLoop` of the arrays the region read, as it found them. -/
theorem out5 (V : (c : Dev nD) → (b : Ref sig .tc) → Buf (Elt Ideal) ((c : Thread nD τ).loc b)) (c : Dev nD) :
    (dat5 (F := Ideal) V c).arrAt 4 cfg5.N
      = Cert.Gcn.selfLoop (M := 100000) (n := 64) (V c main_v64) (V c main_v77) (V c main_v12) (V c main_arg8) :=
  (dat5 (F := Ideal) V c).arrAt_eq_of_cover 4 (Cert.Gcn.selfLoop (M := 100000) (n := 64) (V c main_v64) (V c main_v77) (V c main_v12) (V c main_arg8))
    (fun t _ => flushed5_eq V c t) cover5

end Cert.KernelIdeal.Regions

end
-- ==== Proof.RegionFc6.lean ====
/-
  Region 6: the dense output layer, computed in one step on whole arrays.

  The region has a single grid point, and each of its four blocks is a whole array: a 64 × 64 matrix g, a 64 × 2 matrix w,
  a bias vector b of 2 entries, and the 64 × 2 output. The body multiplies g by w, accumulating from zero, and adds b
  recast as one row and laid along each of the 64 rows. Entry (i, j) of what it stores is therefore
  Σ_k g(i, k) · w(k, j) + b(j): the dense layer at (i, j). Every block index is zero, so entry (i, j) of a block is entry
  (i, j) of its array; the one block of the output is the whole output array, which ends holding the dense layer of the
  three input arrays entry by entry. Both sides are the same sum and the same addition: nothing about finiteness is used.
-/
import proofs.«145851_j23261542875425_1_alg».proof.Proof.Gen.KernelIdeal.Frame
import proofs.«145851_j23261542875425_1_alg».proof.Proof.GcnDefs
import Idealize.ShloMosaic.Lib.Pipeline.Value
import Idealize.ShloMosaic.Lib.ValueIdx
import Idealize.ShloMosaic.Lib.KernelVsHost
import Idealize.ShloMosaic.Lib.StackMember

set_option maxRecDepth 16384

noncomputable section

namespace Cert.KernelIdeal.Regions

open Idealize.ShloMosaic Idealize.ShloMosaic.TcCoe Idealize.SL.Sem Idealize.ShloMosaic.ValueIdx Cert.KernelIdeal Cert.KernelIdeal.Gen
open Idealize.ShloMosaic.Pipeline (Dat Cfg Window)

theorem hz6 : (![0, 0] : Fin 2 → Nat) = fun _ => 0 := funext fun a => by fin_cases a <;> rfl
theorem hz6v : (![0] : Fin 1 → Nat) = fun _ => 0 := funext fun a => by fin_cases a; rfl

/-- The body's value at an entry: when row y 0 of the first block is row i 0 of g, column y 1 of the second block is
    column i 1 of w, and entry y 1 of the third block is entry i 1 of b, the body's value at y is the dense layer at i. -/
theorem pay6_apply (gb : FVec Ideal S64x64 .f32) (wb : FVec Ideal S64x2 .f32) (bb : FVec Ideal S2 .f32)
    (g : FVec Ideal ⟨2, ![64, 64]⟩ .f32) (w : FVec Ideal ⟨2, ![64, 2]⟩ .f32) (b : FVec Ideal ⟨1, ![2]⟩ .f32)
    (y : S64x2.Idx) (i : (⟨2, ![64, 2]⟩ : Shape).Idx)
    (hg : ∀ k : Fin 64, gb (ix2 (y 0) k) = g (ix2 (i 0) k))
    (hw : ∀ k : Fin 64, wb (ix2 k (y 1)) = w (ix2 k (i 1)))
    (hb : bb (ix1 (y 1)) = b (ix1 (i 1))) :
    k6_pay1 (F := Ideal) gb wb bb y = Cert.Gcn.affine g w b i := by
  unfold k6_pay1
  rw [shapeCast_self]
  show matmul dot_S64x64_S64x2_S64x2_1_0_0_1_n_n none gb wb (constant S64x2 .f32 0x00000000#32) y
      + broadcastTo S64x2 (shapeCast S1x2 bb shapeCasts_S2_S1x2) broadcasts_S1x2_S64x2 y
    = Cert.LibRowTiles.prod g w i + b (ix1 (i 1))
  rw [Cert.LibRowTiles.kernelRow_apply bb shapeCasts_S2_S1x2 broadcasts_S1x2_S64x2 y, hb]
  refine congrArg (· + b (ix1 (i 1))) ?_
  rw [show dot_S64x64_S64x2_S64x2_1_0_0_1_n_n = DotDims.plain 64 64 2 from rfl, matmul_zero_eq_dotGeneral]
  conv_lhs => rw [eq_ix2 y]
  refine (StackMember.dotGeneral_plain_apply (φ₁ := .f32) (φ₂ := .f32) none gb wb (y 0) (y 1)).trans ?_
  exact Finset.sum_congr rfl fun k _ => congrArg₂ (· * ·) (hg k) (hw k)

/-- The block indices at the one grid point: all zero. -/
theorem idxFacts6 : ∀ t : Fin cfg6.N, win6_0.index t (0 : Fin 2) = 0
    ∧ win6_0.index t (1 : Fin 2) = 0
    ∧ win6_1.index t (0 : Fin 2) = 0
    ∧ win6_1.index t (1 : Fin 2) = 0
    ∧ win6_2.index t (0 : Fin 1) = 0
    ∧ win6_3.index t (0 : Fin 2) = 0
    ∧ win6_3.index t (1 : Fin 2) = 0 :=
  (by decide +kernel : ∀ t : Fin grid6.N, _)

/-- What the grid point writes back is the dense layer of the three arrays read through its block. -/
theorem flushed6_eq (V : (c : Dev nD) → (b : Ref sig .tc) → Buf (Elt Ideal) ((c : Thread nD τ).loc b)) (c : Dev nD) (t : Fin cfg6.N) :
    (dat6 (F := Ideal) V c).flushed 3 t
      = ((cfg6.win 3).blk t).view.read (Elt Ideal)
          (Cert.Gcn.affine (M := 64) (K := 64) (N := 2) (V c main_v90) (V c main_arg9) (V c main_arg10)) := by
  show (cfg6.win 3).cut (grid6.coords t) ((dat6 (F := Ideal) V c).after 3 t) = _
  rw [after6_3]
  unfold out6_3
  rw [View.canon_unit_zero hz6]
  simp only [View.ld_unit_zero (S := S64x64) hz6, View.ld_unit_zero (S := S64x2) hz6, View.ld_unit_zero (S := S2) hz6v]
  obtain ⟨e0, e1, e2, e3, e4, e5, e6⟩ := idxFacts6 t
  funext j
  show k6_pay1 (F := Ideal) (iblk6 V c 0 t) (iblk6 V c 1 t) (iblk6 V c 2 t) j
    = Cert.Gcn.affine (M := 64) (K := 64) (N := 2) (V c main_v90) (V c main_arg9) (V c main_arg10) (((cfg6.win 3).blk t).view.emb j)
  refine pay6_apply (iblk6 V c 0 t) (iblk6 V c 1 t) (iblk6 V c 2 t) (V c main_v90) (V c main_arg9) (V c main_arg10) j
    (((cfg6.win 3).blk t).view.emb j) ?_ ?_ ?_
  · intro k
    show V c main_v90 (((cfg6.win 0).blk t).view.emb (ix2 (j 0) k)) = V c main_v90 (ix2 ((((cfg6.win 3).blk t).view.emb j) 0) k)
    refine congrArg (V c main_v90) (funext fun a => Fin.ext ?_)
    match a with
    | ⟨0, _⟩ => show win6_0.index t (0 : Fin 2) * 64 + 1 * (j 0).val = win6_3.index t (0 : Fin 2) * 64 + 1 * (j 0).val; omega
    | ⟨1, _⟩ => show win6_0.index t (1 : Fin 2) * 64 + 1 * k.val = k.val; omega
  · intro k
    show V c main_arg9 (((cfg6.win 1).blk t).view.emb (ix2 k (j 1))) = V c main_arg9 (ix2 k ((((cfg6.win 3).blk t).view.emb j) 1))
    refine congrArg (V c main_arg9) (funext fun a => Fin.ext ?_)
    match a with
    | ⟨0, _⟩ => show win6_1.index t (0 : Fin 2) * 64 + 1 * k.val = k.val; omega
    | ⟨1, _⟩ => show win6_1.index t (1 : Fin 2) * 2 + 1 * (j 1).val = win6_3.index t (1 : Fin 2) * 2 + 1 * (j 1).val; omega
  · show V c main_arg10 (((cfg6.win 2).blk t).view.emb (ix1 (j 1))) = V c main_arg10 (ix1 ((((cfg6.win 3).blk t).view.emb j) 1))
    refine congrArg (V c main_arg10) (funext fun a => Fin.ext ?_)
    match a with
    | ⟨0, _⟩ => show win6_2.index t (0 : Fin 1) * 2 + 1 * (j 1).val = win6_3.index t (1 : Fin 2) * 2 + 1 * (j 1).val; omega

/-- An index of the output array is in the point's block iff each coordinate is in the block's range on its axis. -/
theorem memBlk6 (t : Fin cfg6.N) (i : S64x2.Idx) :
    i ∈ ((cfg6.win 3).blk t).view.set ↔ ∀ a : Fin 2, win6_3.index t a * S64x2.size a ≤ (i a).val ∧ (i a).val < win6_3.index t a * S64x2.size a + S64x2.size a := by
  show i ∈ ((View.whole main_v91).slice (win6_3.rect t)).set ↔ _
  rw [View.set_slice_whole, Rect.mem_set_unit]
  exact Iff.rfl

/-- The one block is the whole output array. -/
theorem cover6 (i : S64x2.Idx) : ∃ t : Fin cfg6.N, (cfg6.win 3).flush t = true ∧ i ∈ ((cfg6.win 3).blk t).view.set := by
  have hi0 : (i 0).val < 64 := (i 0).isLt
  have hi1 : (i 1).val < 2 := (i 1).isLt
  obtain ⟨e0, e1, e2, e3, e4, e5, e6⟩ := idxFacts6 t6_0
  refine ⟨t6_0, flush6_3 t6_0, ?_⟩
  rw [memBlk6]
  intro a
  match a with
  | ⟨0, _⟩ => show win6_3.index t6_0 (0 : Fin 2) * 64 ≤ (i 0).val ∧ (i 0).val < win6_3.index t6_0 (0 : Fin 2) * 64 + 64; omega
  | ⟨1, _⟩ => show win6_3.index t6_0 (1 : Fin 2) * 2 ≤ (i 1).val ∧ (i 1).val < win6_3.index t6_0 (1 : Fin 2) * 2 + 2; omega

/-- The output array after the region is the dense layer of the three input arrays as the region found them. -/
theorem out6 (V : (c : Dev nD) → (b : Ref sig .tc) → Buf (Elt Ideal) ((c : Thread nD τ).loc b)) (c : Dev nD) :
    (dat6 (F := Ideal) V c).arrAt 3 cfg6.N
      = Cert.Gcn.affine (M := 64) (K := 64) (N := 2) (V c main_v90) (V c main_arg9) (V c main_arg10) :=
  (dat6 (F := Ideal) V c).arrAt_eq_of_cover 3 _ (fun t _ => flushed6_eq V c t) cover6

end Cert.KernelIdeal.Regions

end
-- ==== Proof.Walk.lean ====
/-
  The kernel's buffers at the boundaries of @main, each as the reference's value of the same quantity.

  Both programs compute, per layer, h = x·W (a matrix product), the edge normalisation d(src)·d(dst) from
  d = (degree + 1)^(-1/2), the aggregate Σ_{e : dst e = n} h(src e)·norm(e), and agg + h·d² + b (under a maximum with
  zero in the first two layers); then a per-graph mean and a dense layer. The kernel computes the products, the
  self-loop-and-bias step and the dense layer in tiled regions and everything else by host operations; the reference is
  host operations throughout. They differ in three places only: (1) the kernel counts in-degrees into zeros and adds one,
  the reference counts into ones — (0 + s) + 1 = 1 + s; (2) the reference passes the destination words through the
  negative-index normalisation before each scatter, the kernel scatters at the raw words — equal when the words are
  non-negative; (3) the kernel recasts a matmul's operands to bf16, which is the identity on the ideal values. So the
  walk below goes boundary by boundary: a region's output array is the whole-array function its tiles compute, a stretch's
  result is its operations applied to buffers carried from earlier boundaries, and each is the reference's value.
-/
import proofs.«145851_j23261542875425_1_alg».proof.Proof.Gen.KernelIdeal.Frame
import proofs.«145851_j23261542875425_1_alg».proof.Proof.Gen.ReferenceIdeal.Read
import proofs.«145851_j23261542875425_1_alg».proof.Proof.GcnDefs
import proofs.«145851_j23261542875425_1_alg».proof.Proof.GcnLaws
import proofs.«145851_j23261542875425_1_alg».proof.Proof.HostElem
import proofs.«145851_j23261542875425_1_alg».proof.Proof.HostFc
import proofs.«145851_j23261542875425_1_alg».proof.Proof.Carry
import proofs.«145851_j23261542875425_1_alg».proof.Proof.RegionMM0
import proofs.«145851_j23261542875425_1_alg».proof.Proof.RegionMM2
import proofs.«145851_j23261542875425_1_alg».proof.Proof.RegionMM4
import proofs.«145851_j23261542875425_1_alg».proof.Proof.RegionEl1
import proofs.«145851_j23261542875425_1_alg».proof.Proof.RegionEl3
import proofs.«145851_j23261542875425_1_alg».proof.Proof.RegionEl5
import proofs.«145851_j23261542875425_1_alg».proof.Proof.RegionFc6
import Idealize.ShloMosaic.Lib.StableHlo.Run
import Idealize.ShloMosaic.PureOps.Ideal.Laws

set_option maxRecDepth 16384

noncomputable section

namespace Cert.KernelIdeal.Walk

open Idealize.ShloMosaic Idealize.ShloMosaic.TcCoe Idealize.ShloMosaic.Tactic Idealize.SL.Sem Idealize.ShloMosaic.StableHlo
open Cert.KernelIdeal Cert.KernelIdeal.Gen Cert.ReferenceIdeal.Read

variable (m : (ℓ : Loc nD τ sig) → Buf (Elt Ideal) ℓ) (ρ : Dev nD → PrngReg) (c : Dev nD)

/-- Every destination word of the edge list tests non-negative. -/
def DstOk : Prop := ∀ e, cmpi .sge (val_main_v3 (F := Ideal) (m ((c : Thread nD τ).loc main_arg1))) (val_main_v6 (F := Ideal)) e = 1#1

/-! ## The destination words pass the negative-index normalisation unchanged -/

theorem wrap_v10 (hd : DstOk m c) : val_main_v10 (F := Ideal) (m ((c : Thread nD τ).loc main_arg1)) = val_main_v3 (F := Ideal) (m ((c : Thread nD τ).loc main_arg1)) := Cert.Gcn.negWrap_of_nonneg _ _ _ hd
theorem wrap_v45 (hd : DstOk m c) : val_main_v45 (F := Ideal) (m ((c : Thread nD τ).loc main_arg1)) = val_main_v3 (F := Ideal) (m ((c : Thread nD τ).loc main_arg1)) := Cert.Gcn.negWrap_of_nonneg _ _ _ hd
theorem wrap_v63 (hd : DstOk m c) : val_main_v63 (F := Ideal) (m ((c : Thread nD τ).loc main_arg1)) = val_main_v3 (F := Ideal) (m ((c : Thread nD τ).loc main_arg1)) := Cert.Gcn.negWrap_of_nonneg _ _ _ hd
theorem wrap_v98 (hd : DstOk m c) : val_main_v98 (F := Ideal) (m ((c : Thread nD τ).loc main_arg1)) = val_main_v3 (F := Ideal) (m ((c : Thread nD τ).loc main_arg1)) := Cert.Gcn.negWrap_of_nonneg _ _ _ hd
theorem wrap_v116 (hd : DstOk m c) : val_main_v116 (F := Ideal) (m ((c : Thread nD τ).loc main_arg1)) = val_main_v3 (F := Ideal) (m ((c : Thread nD τ).loc main_arg1)) := Cert.Gcn.negWrap_of_nonneg _ _ _ hd
theorem wrap_v151 (hd : DstOk m c) : val_main_v151 (F := Ideal) (m ((c : Thread nD τ).loc main_arg1)) = val_main_v3 (F := Ideal) (m ((c : Thread nD τ).loc main_arg1)) := Cert.Gcn.negWrap_of_nonneg _ _ _ hd

/-! ## The first stretch: sources, destinations, degrees, normalisation, the recast operands -/

theorem k1 : W1 (F := Ideal) m ρ c (Proc.devRef .tc main_v1) = val_main_v1 (F := Ideal) (m ((c : Thread nD τ).loc main_arg1)) := by
  show StableHlo.after hostOps0 (W0 m ρ c) (Proc.devRef .tc main_v1) = _
  after_results
  rfl

theorem k3 : W1 (F := Ideal) m ρ c (Proc.devRef .tc main_v3) = val_main_v3 (F := Ideal) (m ((c : Thread nD τ).loc main_arg1)) := by
  show StableHlo.after hostOps0 (W0 m ρ c) (Proc.devRef .tc main_v3) = _
  after_results
  rfl

/-- d in the kernel's arrangement: the in-degrees counted into zeros, plus one, under the inverse square root. -/
def kDinv : FVec Ideal S100000 .f32 :=
  Host.rsqrt (F := Ideal) (addf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (val_main_v3 (F := Ideal) (m ((c : Thread nD τ).loc main_arg1))))
      (broadcastInDim S1600000 ![] bcast_S_S1600000 (constant (F := Ideal) S_ .f32 0x3F800000#32)))
      (broadcastInDim S100000 ![] bcast_S_S100000 (constant (F := Ideal) S_ .f32 0x3F800000#32)))

/-- d = (in-degree + 1)^(-1/2): counted into zeros plus one, against counted into ones. -/
theorem kDinv_eq (hd : DstOk m c) : kDinv m c = val_main_v14 (F := Ideal) (m ((c : Thread nD τ).loc main_arg1)) := by
  unfold kDinv
  rw [Cert.Gcn.scatterAdd_zero_add _ (broadcastInDim S100000 ![] bcast_S_S100000 (constant (F := Ideal) S_ .f32 0x00000000#32)) _ (fun _ => Ideal.ofBits_zero_f32)]
  unfold val_main_v14 val_main_v13 val_main_v11
  rw [wrap_v10 m c hd]
  rfl

theorem k10 : W1 (F := Ideal) m ρ c (Proc.devRef .tc main_v10) = kDinv m c := by
  show StableHlo.after hostOps0 (W0 m ρ c) (Proc.devRef .tc main_v10) = _
  after_results
  rfl

/-- The self-loop coefficient d², as a column. -/
theorem k12 (hd : DstOk m c) : W1 (F := Ideal) m ρ c (Proc.devRef .tc main_v12) = val_main_v49 (F := Ideal) (m ((c : Thread nD τ).loc main_arg1)) := by
  have e : W1 (F := Ideal) m ρ c (Proc.devRef .tc main_v12)
      = (broadcastInDim S100000x1 ![0] bcast_S100000_S100000x1_0 (mulf (F := Ideal) (kDinv m c) (kDinv m c)) : FVec Ideal S100000x1 .f32) := by
    show StableHlo.after hostOps0 (W0 m ρ c) (Proc.devRef .tc main_v12) = _
    after_results
    rfl
  rw [e, kDinv_eq m c hd]
  rfl

set_option maxHeartbeats 1600000 in
/-- The edge normalisation d(src)·d(dst). -/
theorem k27 (hd : DstOk m c) : W1 (F := Ideal) m ρ c (Proc.devRef .tc main_v27) = val_main_v29 (F := Ideal) (m ((c : Thread nD τ).loc main_arg1)) := by
  have e : W1 (F := Ideal) m ρ c (Proc.devRef .tc main_v27)
      = (mulf (F := Ideal)
          (Host.gather gather_S100000_S1600000x1_S1600000_n_0_n_n_0_1_1 (kDinv m c) (broadcastInDim S1600000x1 ![0] bcast_S1600000_S1600000x1_0 (val_main_v19 (F := Ideal) (m ((c : Thread nD τ).loc main_arg1)))))
          (Host.gather gather_S100000_S1600000x1_S1600000_n_0_n_n_0_1_1 (kDinv m c) (broadcastInDim S1600000x1 ![0] bcast_S1600000_S1600000x1_0 (val_main_v26 (F := Ideal) (m ((c : Thread nD τ).loc main_arg1))))) : FVec Ideal S1600000 .f32) := by
    show StableHlo.after hostOps0 (W0 m ρ c) (Proc.devRef .tc main_v27) = _
    after_results_simp
    rfl
  rw [e, kDinv_eq m c hd]
  rfl

theorem k28 : W1 (F := Ideal) m ρ c (Proc.devRef .tc main_v28) = (m ((c : Thread nD τ).loc main_arg0)) := by
  show StableHlo.after hostOps0 (W0 m ρ c) (Proc.devRef .tc main_v28) = _
  after_results
  rfl

theorem k29 : W1 (F := Ideal) m ρ c (Proc.devRef .tc main_v29) = (m ((c : Thread nD τ).loc main_arg3)) := by
  show StableHlo.after hostOps0 (W0 m ρ c) (Proc.devRef .tc main_v29) = _
  after_results
  rfl

/-! ## Layer 1 -/

/-- h₁ = x·W₁: the tiled product is the whole product. -/
theorem r0 : W2 (F := Ideal) m ρ c (Proc.devRef .tc main_v30) = val_main_v4 (F := Ideal) (m ((c : Thread nD τ).loc main_arg0)) (m ((c : Thread nD τ).loc main_arg3)) := by
  rw [show W2 (F := Ideal) m ρ c (Proc.devRef .tc main_v30) = (dat0 (V1 m ρ) c).arrAt 2 cfg0.N from W2_arr m ρ c 2, Cert.KernelIdeal.Regions.out0]
  show Cert.LibRowTiles.prod (W1 (F := Ideal) m ρ c (Proc.devRef .tc main_v28)) (W1 (F := Ideal) m ρ c (Proc.devRef .tc main_v29)) = _
  rw [k28 m ρ c, k29 m ρ c]
  exact (Cert.LibRowTiles.dotGeneral_eq_prod _ rfl _ _).symm

/-- The aggregated messages of this layer: the scatter-add, at the raw destination words, of the projected rows gathered at
    the sources times the edge normalisation, is the reference's (whose destination words are normalised first). -/
theorem s1 (hd : DstOk m c) : W3 (F := Ideal) m ρ c (Proc.devRef .tc main_v43) = val_main_v47 (F := Ideal) (m ((c : Thread nD τ).loc main_arg0)) (m ((c : Thread nD τ).loc main_arg1)) (m ((c : Thread nD τ).loc main_arg3)) := by
  show StableHlo.after hostOps1 (W2 m ρ c) (Proc.devRef .tc main_v43) = _
  after_results_simp
  rw [carry_v3_2 m ρ c, carry_v1_2 m ρ c, carry_v27_2 m ρ c, k3 m ρ c, k1 m ρ c, k27 m ρ c hd, r0 m ρ c]
  unfold val_main_v47 val_main_v46
  rw [wrap_v45 m c hd]
  rfl

/-- Layer 1's output: agg + h·d² + b under the maximum with zero. -/
theorem r1 (hd : DstOk m c) : W4 (F := Ideal) m ρ c (Proc.devRef .tc main_v44) = val_main_v56 (F := Ideal) (m ((c : Thread nD τ).loc main_arg0)) (m ((c : Thread nD τ).loc main_arg1)) (m ((c : Thread nD τ).loc main_arg3)) (m ((c : Thread nD τ).loc main_arg4)) := by
  rw [show W4 (F := Ideal) m ρ c (Proc.devRef .tc main_v44) = (dat1 (V3 m ρ) c).arrAt 4 cfg1.N from W4_arr m ρ c 4, Cert.KernelIdeal.Regions.out1]
  show Cert.Gcn.selfLoopRelu (W3 (F := Ideal) m ρ c (Proc.devRef .tc main_v30)) (W3 (F := Ideal) m ρ c (Proc.devRef .tc main_v43)) (W3 (F := Ideal) m ρ c (Proc.devRef .tc main_v12)) (W3 (F := Ideal) m ρ c (Proc.devRef .tc main_arg4)) = _
  rw [carry_v30_3 m ρ c, r0 m ρ c, s1 m ρ c hd, carry_v12_3 m ρ c, k12 m ρ c hd, carry_arg4_3 m ρ c]
  exact (Cert.Gcn.host_selfLoopRelu_eq _ _ _ _ _ (val_main_v4 (F := Ideal) (m ((c : Thread nD τ).loc main_arg0)) (m ((c : Thread nD τ).loc main_arg3))) (val_main_v47 (F := Ideal) (m ((c : Thread nD τ).loc main_arg0)) (m ((c : Thread nD τ).loc main_arg1)) (m ((c : Thread nD τ).loc main_arg3))) (val_main_v49 (F := Ideal) (m ((c : Thread nD τ).loc main_arg1))) (m ((c : Thread nD τ).loc main_arg4))).symm

/-! ## Layer 2 -/

theorem k45 : W5 (F := Ideal) m ρ c (Proc.devRef .tc main_v45) = W4 (F := Ideal) m ρ c (Proc.devRef .tc main_v44) := by
  show StableHlo.after hostOps2 (W4 m ρ c) (Proc.devRef .tc main_v45) = _
  after_results
  rfl

theorem k46 : W5 (F := Ideal) m ρ c (Proc.devRef .tc main_v46) = (m ((c : Thread nD τ).loc main_arg5)) := by
  show StableHlo.after hostOps2 (W4 m ρ c) (Proc.devRef .tc main_v46) = _
  after_results
  rw [carry_arg5_4 m ρ c]
  rfl

theorem r2 (hd : DstOk m c) : W6 (F := Ideal) m ρ c (Proc.devRef .tc main_v47) = val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [show W6 (F := Ideal) m ρ c (Proc.devRef .tc main_v47) = (dat2 (V5 m ρ) c).arrAt 2 cfg2.N from W6_arr m ρ c 2, Cert.KernelIdeal.Regions.out2]
  show Cert.LibRowTiles.prod (W5 (F := Ideal) m ρ c (Proc.devRef .tc main_v45)) (W5 (F := Ideal) m ρ c (Proc.devRef .tc main_v46)) = _
  rw [k45 m ρ c, k46 m ρ c, r1 m ρ c hd]
  exact (Cert.LibRowTiles.dotGeneral_eq_prod _ rfl _ _).symm

/-- The aggregated messages of this layer: the scatter-add, at the raw destination words, of the projected rows gathered at
    the sources times the edge normalisation, is the reference's (whose destination words are normalised first). -/
theorem s3 (hd : DstOk m c) : W7 (F := Ideal) m ρ c (Proc.devRef .tc main_v60) = val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W6 m ρ c) (Proc.devRef .tc main_v60) = _
  after_results_simp
  rw [carry_v3_6 m ρ c, carry_v3_2 m ρ c, carry_v1_6 m ρ c, carry_v1_2 m ρ c, carry_v27_6 m ρ c, carry_v27_2 m ρ c, k3 m ρ c, k1 m ρ c, k27 m ρ c hd, r2 m ρ c hd]
  unfold val_main_v100 val_main_v99
  rw [wrap_v98 m c hd]
  rfl

theorem r3 (hd : DstOk m c) : W8 (F := Ideal) m ρ c (Proc.devRef .tc main_v61) = val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [show W8 (F := Ideal) m ρ c (Proc.devRef .tc main_v61) = (dat3 (V7 m ρ) c).arrAt 4 cfg3.N from W8_arr m ρ c 4, Cert.KernelIdeal.Regions.out3]
  show Cert.Gcn.selfLoopRelu (W7 (F := Ideal) m ρ c (Proc.devRef .tc main_v47)) (W7 (F := Ideal) m ρ c (Proc.devRef .tc main_v60)) (W7 (F := Ideal) m ρ c (Proc.devRef .tc main_v12)) (W7 (F := Ideal) m ρ c (Proc.devRef .tc main_arg6)) = _
  rw [carry_v47_7 m ρ c, r2 m ρ c hd, s3 m ρ c hd, carry_v12_7 m ρ c, carry_v12_3 m ρ c, k12 m ρ c hd, carry_arg6_7 m ρ c]
  exact (Cert.Gcn.host_selfLoopRelu_eq _ _ _ _ _ (val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (val_main_v102 (F := Ideal) (m ((c : Thread nD τ).loc main_arg1))) (m ((c : Thread nD τ).loc main_arg6))).symm

/-! ## Layer 3 -/

theorem k62 : W9 (F := Ideal) m ρ c (Proc.devRef .tc main_v62) = W8 (F := Ideal) m ρ c (Proc.devRef .tc main_v61) := by
  show StableHlo.after hostOps4 (W8 m ρ c) (Proc.devRef .tc main_v62) = _
  after_results
  rfl

theorem k63 : W9 (F := Ideal) m ρ c (Proc.devRef .tc main_v63) = (m ((c : Thread nD τ).loc main_arg7)) := by
  show StableHlo.after hostOps4 (W8 m ρ c) (Proc.devRef .tc main_v63) = _
  after_results
  rw [carry_arg7_8 m ρ c]
  rfl

theorem r4 (hd : DstOk m c) : W10 (F := Ideal) m ρ c (Proc.devRef .tc main_v64) = val_main_v110 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W10 (F := Ideal) m ρ c (Proc.devRef .tc main_v64) = (dat4 (V9 m ρ) c).arrAt 2 cfg4.N from W10_arr m ρ c 2, Cert.KernelIdeal.Regions.out4]
  show Cert.LibRowTiles.prod (W9 (F := Ideal) m ρ c (Proc.devRef .tc main_v62)) (W9 (F := Ideal) m ρ c (Proc.devRef .tc main_v63)) = _
  rw [k62 m ρ c, k63 m ρ c, r3 m ρ c hd]
  exact (Cert.LibRowTiles.dotGeneral_eq_prod _ rfl _ _).symm

/-- The aggregated messages of this layer: the scatter-add, at the raw destination words, of the projected rows gathered at
    the sources times the edge normalisation, is the reference's (whose destination words are normalised first). -/
theorem s5 (hd : DstOk m c) : W11 (F := Ideal) m ρ c (Proc.devRef .tc main_v77) = val_main_v153 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W10 m ρ c) (Proc.devRef .tc main_v77) = _
  after_results_simp
  rw [carry_v3_10 m ρ c, carry_v3_6 m ρ c, carry_v3_2 m ρ c, carry_v1_10 m ρ c, carry_v1_6 m ρ c, carry_v1_2 m ρ c, carry_v27_10 m ρ c, carry_v27_6 m ρ c, carry_v27_2 m ρ c, k3 m ρ c, k1 m ρ c, k27 m ρ c hd, r4 m ρ c hd]
  unfold val_main_v153 val_main_v152
  rw [wrap_v151 m c hd]
  rfl

/-- Layer 3's output: agg + h·d² + b, no maximum. -/
theorem r5 (hd : DstOk m c) : W12 (F := Ideal) m ρ c (Proc.devRef .tc main_v78) = val_main_v161 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [show W12 (F := Ideal) m ρ c (Proc.devRef .tc main_v78) = (dat5 (V11 m ρ) c).arrAt 4 cfg5.N from W12_arr m ρ c 4, Cert.KernelIdeal.Regions.out5]
  show Cert.Gcn.selfLoop (W11 (F := Ideal) m ρ c (Proc.devRef .tc main_v64)) (W11 (F := Ideal) m ρ c (Proc.devRef .tc main_v77)) (W11 (F := Ideal) m ρ c (Proc.devRef .tc main_v12)) (W11 (F := Ideal) m ρ c (Proc.devRef .tc main_arg8)) = _
  rw [carry_v64_11 m ρ c, r4 m ρ c hd, s5 m ρ c hd, carry_v12_11 m ρ c, carry_v12_7 m ρ c, carry_v12_3 m ρ c, k12 m ρ c hd, carry_arg8_11 m ρ c]
  exact (Cert.Gcn.host_selfLoop_eq _ _ _ (val_main_v110 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (val_main_v153 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (val_main_v155 (F := Ideal) (m ((c : Thread nD τ).loc main_arg1))) (m ((c : Thread nD τ).loc main_arg8))).symm

/-! ## The per-graph mean and the dense layer -/

theorem s6 (hd : DstOk m c) : W13 (F := Ideal) m ρ c (Proc.devRef .tc main_v90) = val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W12 m ρ c) (Proc.devRef .tc main_v90) = _
  after_results_simp
  rw [carry_arg2_12 m ρ c, r5 m ρ c hd]
  rfl

/-- The kernel's result buffer at the last boundary is the reference's result. -/
theorem result (hd : DstOk m c) : W14 (F := Ideal) m ρ c (Proc.devRef .tc main_v91) = val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W14 (F := Ideal) m ρ c (Proc.devRef .tc main_v91) = (dat6 (V13 m ρ) c).arrAt 3 cfg6.N from W14_arr m ρ c 3, Cert.KernelIdeal.Regions.out6]
  show Cert.Gcn.affine (W13 (F := Ideal) m ρ c (Proc.devRef .tc main_v90)) (W13 (F := Ideal) m ρ c (Proc.devRef .tc main_arg9)) (W13 (F := Ideal) m ρ c (Proc.devRef .tc main_arg10)) = _
  rw [s6 m ρ c hd, carry_arg9_13 m ρ c, carry_arg10_13 m ρ c]
  exact (Cert.Gcn.host_affine_eq _ rfl _ _ (val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10))).symm

end Cert.KernelIdeal.Walk

end
-- ==== Proof.lean ====
/-
  The claim: the idealized kernel (three graph-convolution layers, a per-graph mean and a dense layer, its matrix products,
  self-loop-and-bias steps and dense layer tiled over the node axis) and the idealized reference end with equal results on
  the extended reals, under the precondition that the float inputs are finite and that no destination index of the edge
  list is negative.

  The second conjunct is what the equality needs: the reference normalises a negative destination index (adds the node
  count) before each scatter, the kernel scatters at the raw index and drops a negative one, so on an edge list with a
  negative destination the two programs differ; on non-negative destinations the normalisation is the identity and every
  other step is the same exact operation on both sides, up to commutativity of one addition. Finiteness of the float
  inputs is never used.

  The three frame claims are the generated frames (the reference's is its run with the result dropped); the idealization
  rewrote nothing, so its claim is trivial; the algebraic claim puts the kernel's run with its result named
  (KernelRun.lean), the walk through the boundaries of @main to the reference's value (Walk.lean) and the reference's
  generated run side by side.
-/
import proofs.«145851_j23261542875425_1_alg».proof.Defs
import proofs.«145851_j23261542875425_1_alg».proof.Proof.Gen.Kernel
import proofs.«145851_j23261542875425_1_alg».proof.Proof.Gen.Kernel.Skeleton
import proofs.«145851_j23261542875425_1_alg».proof.Proof.Gen.Kernel.Launch
import proofs.«145851_j23261542875425_1_alg».proof.Proof.Gen.Kernel.Points
import proofs.«145851_j23261542875425_1_alg».proof.Proof.Gen.Kernel.Frame
import proofs.«145851_j23261542875425_1_alg».proof.Proof.Gen.KernelIdeal
import proofs.«145851_j23261542875425_1_alg».proof.Proof.Gen.KernelIdeal.Skeleton
import proofs.«145851_j23261542875425_1_alg».proof.Proof.Gen.KernelIdeal.Launch
import proofs.«145851_j23261542875425_1_alg».proof.Proof.Gen.KernelIdeal.Points
import proofs.«145851_j23261542875425_1_alg».proof.Proof.Gen.KernelIdeal.Frame
import proofs.«145851_j23261542875425_1_alg».proof.Proof.Gen.ReferenceIdeal
import proofs.«145851_j23261542875425_1_alg».proof.Proof.Gen.ReferenceIdeal.Run
import proofs.«145851_j23261542875425_1_alg».proof.Proof.Gen.ReferenceIdeal.Read
import proofs.«145851_j23261542875425_1_alg».proof.Proof.Gen.Pre_finite_inputs
import proofs.«145851_j23261542875425_1_alg».proof.Proof.KernelRun
import proofs.«145851_j23261542875425_1_alg».proof.Proof.PreDst
import proofs.«145851_j23261542875425_1_alg».proof.Proof.Walk
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the reference's value of the arguments: the kernel's by the walk through its
    boundaries (the destination words non-negative by the precondition), the reference's by its generated run, read at
    arguments that agree. -/
theorem algebraic : Cert.algebraic_KernelIdeal_ReferenceIdeal := by
  intro m ρ m' ρ' hpre hagree
  have hd : ∀ c, Cert.KernelIdeal.Walk.DstOk m c := fun c e =>
    Cert.PreDst.dst_nonneg _ _ _ _ _ _ _ _ _ _ _ (hpre c) e
  refine ⟨fun c => Cert.ReferenceIdeal.Read.val_main_v177 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Walk.result m ρ c (hd c)), (h c).2⟩)
      (Cert.KernelIdeal.RunV.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v177_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
